-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3 : Shape := ⟨1, ![3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3 : S_.BroadcastsInDim S3 (![] : Fin 0 → Fin S3.rank)
  reducesTo_S3_S_d0 : S3.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S128x64 .f32) (main_arg14 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x64 .f32) (main_arg12 : FVec F S64 .f32) (main_arg13 : FVec F S128x64 .f32) (main_arg14 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S64x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S3 .f32) (main_arg3 : FVec F S3x64 .f32) (main_arg4 : FVec F S64 .f32) (main_arg5 : FVec F S64x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3 .f32 := Host.absf main_arg2
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S3 : Shape := ⟨1, ![3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x3 : Shape := ⟨2, ![1, 3]⟩
abbrev S1x64 : Shape := ⟨2, ![1, 64]⟩
abbrev S1x128 : Shape := ⟨2, ![1, 128]⟩
abbrev S5000x128 : Shape := ⟨2, ![5000, 128]⟩
abbrev S850000x128 : Shape := ⟨2, ![850000, 128]⟩
abbrev S50000x64 : Shape := ⟨2, ![50000, 64]⟩

abbrev nBuf : Space → Nat
  | .hbm => 109
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3, .f32⟩
  | .hbm, ⟨3, _⟩ => ⟨S3x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S1x3, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S128x128, .f32⟩
  | .hbm, ⟨104, _⟩ => ⟨S128, .f32⟩
  | .hbm, ⟨105, _⟩ => ⟨S1x128, .f32⟩
  | .hbm, ⟨106, _⟩ => ⟨S50000x128, .f32⟩
  | .hbm, ⟨107, _⟩ => ⟨S50000x64, .f32⟩
  | .hbm, ⟨108, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_cst : Ref sig .tc := ⟨.hbm, 59, rfl⟩
abbrev main_call1_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_c_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S3_S1x3_1 : S3.BroadcastsInDim S1x3 (![1] : Fin 1 → Fin S1x3.rank)
  bcast_S64_S1x64_1 : S64.BroadcastsInDim S1x64 (![1] : Fin 1 → Fin S1x64.rank)
  bcast_S_S1x64 : S_.BroadcastsInDim S1x64 (![] : Fin 0 → Fin S1x64.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1x3_S3x64_S1x64_1_0_0_1_n_n_wf : DotDims.WF S1x3 S3x64 S1x64 [1] [0] [0] [1] [] []
  dot_S1x64_S64x128_S1x128_1_0_0_1_n_n_wf : DotDims.WF S1x64 S64x128 S1x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1x3_S3x64_S1x64_1_0_0_1_n_n : DotDims S1x3 S3x64 S1x64 where
  lhsContracting := [1]
  rhsContracting := [0]
  lhsNonContracting := [0]
  rhsNonContracting := [1]
  lhsBatch := []
  rhsBatch := []
  wf := dot_S1x3_S3x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3 : Shape := ⟨1, ![3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x3 : Shape := ⟨2, ![1, 3]⟩
abbrev S1x64 : Shape := ⟨2, ![1, 64]⟩
abbrev S1x128 : Shape := ⟨2, ![1, 128]⟩
abbrev S850000x128 : Shape := ⟨2, ![850000, 128]⟩
abbrev S50000x64 : Shape := ⟨2, ![50000, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3, .f32⟩
  | .hbm, ⟨3, _⟩ => ⟨S3x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S1x3, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x1, .f32⟩
  | .hbm, ⟨101, _⟩ => ⟨S850000x128, .f32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_cst : Ref sig .tc := ⟨.hbm, 59, rfl⟩
abbrev main_call1_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_c_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_cst : Ref sig .tc := ⟨.hbm, 110, rfl⟩
abbrev main_call3_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S3_S1x3_1 : S3.BroadcastsInDim S1x3 (![1] : Fin 1 → Fin S1x3.rank)
  bcast_S64_S1x64_1 : S64.BroadcastsInDim S1x64 (![1] : Fin 1 → Fin S1x64.rank)
  bcast_S_S1x64 : S_.BroadcastsInDim S1x64 (![] : Fin 0 → Fin S1x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1x3_S3x64_S1x64_1_0_0_1_n_n_wf : DotDims.WF S1x3 S3x64 S1x64 [1] [0] [0] [1] [] []
  dot_S1x64_S64x128_S1x128_1_0_0_1_n_n_wf : DotDims.WF S1x64 S64x128 S1x128 [1] [0] [0] [1] [] []
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1x3_S3x64_S1x64_1_0_0_1_n_n : DotDims S1x3 S3x64 S1x64 where
  lhsContracting := [1]
  rhsContracting := [0]
  lhsNonContracting := [0]
  rhsNonContracting := [1]
  lhsBatch := []
  rhsBatch := []
  wf := dot_S1x3_S3x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its two result arrays NAMED.

  The program is fourteen segments: stretches of host operations and five tiled matrix kernels, one after the
  other. The generated frame certificate folds the buffer contents through the segments (`Gen.W0` … `Gen.W14`:
  a host stretch rewrites its result buffers, a kernel region rewrites its output array) and shows that every
  weakly fair execution ends, without a fault, in a state whose unscoped buffers hold the last fold `Gen.W14`.
  That certificate keeps only what the fold says about the fifteen argument arrays. Here the same run is read
  once more at the two result buffers as well: they end holding `Gen.W14` at their references. What those two
  folds ARE, as functions of the arguments, is the business of the other modules.
-/
import proofs.«126186_j44573170598274_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the
    last boundary's contents, and the argument arrays end as launched. -/
theorem run_named : θ_run defs (onTc (τ := τ) (main (F := F))) ⟨m, fun _ => 0, ρ⟩ (fun r => ∀ c : Dev nD,
      r.2.mem ((c.tc : Thread nD τ).loc main_v74) = W14 m ρ c (Proc.devRef .tc main_v74)
      ∧ r.2.mem ((c.tc : Thread nD τ).loc main_v75) = W14 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v74 (by decide)),
       h c _ (mem_uc main_v75 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.Hand

end
-- ==== Proof.Spec.lean ====
/-
  The four node-wise stages of the two-layer graph convolution encoder, each as ONE function of whole arrays,
  entry by entry, over the extended reals. A node's row has 128 features; `R` is the number of rows, so the same
  definition reads a whole array of 50000 rows and a tile of 5000 rows of it.

  * `projAdd x h W`  : row r, column c ↦ ∑ₖ (x[r,k] + h[0,k]) · W[k,c]   (a shared row `h` added to every row, then a
                        product with a 128 × 128 matrix);
  * `proj x W`       : row r, column c ↦ ∑ₖ x[r,k] · W[k,c];
  * `biasRelu a b`   : row r, column c ↦ max (a[r,c] + b[0,c]) 0;
  * `linBias x W b`  : row r, column c ↦ (∑ₖ x[r,k] · W[k,c]) + b[0,c].

  Each entry of a result depends on ONE row of the first operand, so a tile of rows of the result is the same
  function of the same tile of rows of the operand: that is what lets a kernel compute them tile by tile.
-/
import Idealize.ShloMosaic.PureOps.Ideal
import Idealize.ShloMosaic.PureOps.Ideal.Laws
import Idealize.ShloMosaic.Lib.ValueIdx

noncomputable section

namespace Cert.Stage

open Idealize.ShloMosaic Idealize.ShloMosaic.ValueIdx

/-- The index (row of `y`, column `k`). -/
abbrev rowAt {R C : Nat} (y : (⟨2, ![R, C]⟩ : Shape).Idx) (k : Fin C) : (⟨2, ![R, C]⟩ : Shape).Idx :=
  ix2 (⟨(y 0).val, idx2_lt0 y⟩ : Fin R) k

/-- The index (row `k`, column of `y`). -/
abbrev colAt {R C K : Nat} (k : Fin K) (y : (⟨2, ![R, C]⟩ : Shape).Idx) : (⟨2, ![K, C]⟩ : Shape).Idx :=
  ix2 k (⟨(y 1).val, idx2_lt1 y⟩ : Fin C)

/-- The index (row 0, column of `y`) of a one-row array. -/
abbrev lone {R C : Nat} (y : (⟨2, ![R, C]⟩ : Shape).Idx) : (⟨2, ![1, C]⟩ : Shape).Idx :=
  ix2 (0 : Fin 1) (⟨(y 1).val, idx2_lt1 y⟩ : Fin C)

/-- The index (row 0, column `k`) of a one-row array. -/
abbrev loneK {C : Nat} (k : Fin C) : (⟨2, ![1, C]⟩ : Shape).Idx := ix2 (0 : Fin 1) k

/-- A shared row added to every row, then the product with a square matrix. -/
def projAdd {R : Nat} (x : (⟨2, ![R, 128]⟩ : Shape).Idx → EReal) (h : (⟨2, ![1, 128]⟩ : Shape).Idx → EReal)
    (W : (⟨2, ![128, 128]⟩ : Shape).Idx → EReal) : (⟨2, ![R, 128]⟩ : Shape).Idx → EReal :=
  fun i => ∑ k : Fin 128, (x (rowAt i k) + h (loneK k)) * W (colAt k i)

/-- The product with a square matrix. -/
def proj {R : Nat} (x : (⟨2, ![R, 128]⟩ : Shape).Idx → EReal)
    (W : (⟨2, ![128, 128]⟩ : Shape).Idx → EReal) : (⟨2, ![R, 128]⟩ : Shape).Idx → EReal :=
  fun i => ∑ k : Fin 128, x (rowAt i k) * W (colAt k i)

/-- A shared row added to every row, then the positive part. -/
def biasRelu {R : Nat} (a : (⟨2, ![R, 128]⟩ : Shape).Idx → EReal) (b : (⟨2, ![1, 128]⟩ : Shape).Idx → EReal) :
    (⟨2, ![R, 128]⟩ : Shape).Idx → EReal :=
  fun i => max (a i + b (lone i)) (Ideal.ofBits .f32 0x00000000#32)

/-- The product with a square matrix, then a shared row added to every row. -/
def linBias {R : Nat} (x : (⟨2, ![R, 128]⟩ : Shape).Idx → EReal) (W : (⟨2, ![128, 128]⟩ : Shape).Idx → EReal)
    (b : (⟨2, ![1, 128]⟩ : Shape).Idx → EReal) : (⟨2, ![R, 128]⟩ : Shape).Idx → EReal :=
  fun i => (∑ k : Fin 128, x (rowAt i k) * W (colAt k i)) + b (lone i)

end Cert.Stage

end
-- ==== Proof.Payloads.lean ====
/-
  What each of the five kernel bodies computes from the tiles it loads, as a function of those tiles, entry by entry
  over the extended reals. A tile is 5000 rows of 128 features; the matrix operands are whole.

  Each body is a product with a matrix on the matrix unit, into a zero accumulator (so just the sum over the 128
  contracted features), with a shared row added before it (the first projection), after it (the output heads), or a
  shared row added and the positive part taken (the two activations). Read at an entry these are the stage
  functions of `Cert.Stage` at 5000 rows.
-/
import proofs.«126186_j44573170598274_1_alg».proof.Proof.Gen.KernelIdeal.Skeleton
import proofs.«126186_j44573170598274_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Stage
open Idealize.ShloMosaic Idealize.ShloMosaic.ValueIdx

/-- The zero offsets of a whole-tile access, however spelt. -/
theorem hz : (![0, 0] : Fin 2 → Nat) = fun _ => 0 := funext fun a => by fin_cases a <;> rfl

/-! ## The tile product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's product with a matrix, into the zero accumulator, at entry (r, c): the sum over the 128 contracted
    features of the tile at (r, k) times the matrix at (k, c). -/
theorem matmul_at (l : FVec Ideal S5000x128 .f32) (r : FVec Ideal S128x128 .f32) (y : S5000x128.Idx) :
    matmul dot_S5000x128_S128x128_S5000x128_1_0_0_1_n_n none l r (constant S5000x128 .f32 0x00000000#32) y
      = ∑ k : Fin 128, l (rowAt y k) * r (colAt k y) := by
  show FloatOps.matmul dot_S5000x128_S128x128_S5000x128_1_0_0_1_n_n none l r (constant S5000x128 .f32 0x00000000#32) y = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = rowAt y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = colAt k y := funext fun a => Fin.ext (by
    match a with
    | ⟨0, _⟩ => exact (rhs_0 _ _).trans hk
    | ⟨1, _⟩ => exact rhs_1 _ _)
  rw [el, er]

/-- The shared row, broadcast over the tile's rows, at entry (r, c) is the row at c. -/
theorem rowBcast_at (v : Vec Ideal S1x128 .f32) (y : S5000x128.Idx) :
    broadcastTo S5000x128 (shapeCast S1x128 v shapeCasts_S1x128_S1x128) broadcasts_S1x128_S5000x128 y = v (lone y) := by
  rw [shapeCast_self]
  obtain ⟨p, q, rfl⟩ : ∃ (p : Fin 5000) (q : Fin 128), y = ix2 p q := ⟨y 0, y 1, eq_ix2 y⟩
  exact broadcastTo_1b_ab_apply v broadcasts_S1x128_S5000x128 p q

/-- The column index depends on the index's column only. -/
theorem colAt_congr {R R' C K : Nat} (k : Fin K) (y : (⟨2, ![R, C]⟩ : Shape).Idx) (i : (⟨2, ![R', C]⟩ : Shape).Idx)
    (h : (i 1).val = (y 1).val) : colAt k y = colAt k i :=
  funext fun a => Fin.ext (by
    match a with
    | ⟨0, _⟩ => rfl
    | ⟨1, _⟩ => exact h.symm)

/-- The shared row's index depends on the index's column only. -/
theorem lone_congr {R R' C : Nat} (y : (⟨2, ![R, C]⟩ : Shape).Idx) (i : (⟨2, ![R', C]⟩ : Shape).Idx)
    (h : (i 1).val = (y 1).val) : lone y = lone i :=
  funext fun a => Fin.ext (by
    match a with
    | ⟨0, _⟩ => rfl
    | ⟨1, _⟩ => exact h.symm)

/-! ## The five bodies -/

/-- The first projection's body: the shared row added to the tile, then the product. -/
theorem pay0_eq (x0 : Vec Ideal S5000x128 .f32) (x1 : Vec Ideal S1x128 .f32) (x2 : Vec Ideal S128x128 .f32) :
    k0_pay1 x0 x1 x2 = projAdd x0 x1 x2 := by
  funext y
  show matmul (F := Ideal) (φ₁ := .f32) (φ₂ := .f32) dot_S5000x128_S128x128_S5000x128_1_0_0_1_n_n none (addf (F := Ideal) (φ := .f32) x0 (broadcastTo S5000x128 (shapeCast S1x128 x1 shapeCasts_S1x128_S1x128) broadcasts_S1x128_S5000x128)) x2 (constant S5000x128 .f32 0x00000000#32) y = _
  refine (matmul_at _ x2 y).trans ?_
  refine Finset.sum_congr rfl fun k _ => ?_
  refine congrArg (· * x2 (colAt k y)) ?_
  show x0 (rowAt y k) + broadcastTo S5000x128 (shapeCast S1x128 x1 shapeCasts_S1x128_S1x128) broadcasts_S1x128_S5000x128 (rowAt y k) = x0 (rowAt y k) + x1 (loneK k)
  rw [rowBcast_at]

/-- An activation's body: the shared row added to the tile, then the positive part. -/
theorem pay1_eq (x0 : Vec Ideal S5000x128 .f32) (x1 : Vec Ideal S1x128 .f32) :
    k1_pay1 x0 x1 = biasRelu x0 x1 := by
  funext y
  show max (shapeCast S5000x128 x0 shapeCasts_S5000x128_S5000x128 y + broadcastTo S5000x128 (shapeCast S1x128 x1 shapeCasts_S1x128_S1x128) broadcasts_S1x128_S5000x128 y) (Ideal.ofBits .f32 0x00000000#32) = _
  rw [shapeCast_self, rowBcast_at]
  rfl

/-- The second projection's body: the product. -/
theorem pay2_eq (x0 : Vec Ideal S5000x128 .f32) (x1 : Vec Ideal S128x128 .f32) :
    k2_pay1 x0 x1 = proj x0 x1 := by
  funext y
  show matmul (F := Ideal) (φ₁ := .f32) (φ₂ := .f32) dot_S5000x128_S128x128_S5000x128_1_0_0_1_n_n none (shapeCast S5000x128 x0 shapeCasts_S5000x128_S5000x128) x1 (constant S5000x128 .f32 0x00000000#32) y = _
  rw [shapeCast_self]
  exact matmul_at x0 x1 y

/-- The second activation's body, as the first. -/
theorem pay3_eq (x0 : Vec Ideal S5000x128 .f32) (x1 : Vec Ideal S1x128 .f32) :
    k3_pay1 x0 x1 = biasRelu x0 x1 := by
  funext y
  show max (shapeCast S5000x128 x0 shapeCasts_S5000x128_S5000x128 y + broadcastTo S5000x128 (shapeCast S1x128 x1 shapeCasts_S1x128_S1x128) broadcasts_S1x128_S5000x128 y) (Ideal.ofBits .f32 0x00000000#32) = _
  rw [shapeCast_self, rowBcast_at]
  rfl

/-- The output heads' body: the product, then the shared row added. -/
theorem pay4_eq (x0 : Vec Ideal S5000x128 .f32) (x1 : Vec Ideal S128x128 .f32) (x2 : Vec Ideal S1x128 .f32) :
    k4_pay1 x0 x1 x2 = linBias x0 x1 x2 := by
  funext y
  show matmul (F := Ideal) (φ₁ := .f32) (φ₂ := .f32) dot_S5000x128_S128x128_S5000x128_1_0_0_1_n_n none (shapeCast S5000x128 x0 shapeCasts_S5000x128_S5000x128) (shapeCast S128x128 x1 shapeCasts_S128x128_S128x128) (constant S5000x128 .f32 0x00000000#32) y
      + broadcastTo S5000x128 (shapeCast S1x128 x2 shapeCasts_S1x128_S1x128) broadcasts_S1x128_S5000x128 y = _
  rw [shapeCast_self, shapeCast_self, rowBcast_at, matmul_at]
  rfl

end Cert.KernelIdeal.Hand

end
-- ==== Proof.Region0.lean ====
/-
  The first projection kernel, read as a value: its result array is `projAdd` of the node features, the shared embedding row and the first weight matrix.

  The kernel runs over ten grid points; at point `t` it loads rows `5000 t … 5000 t + 4999` of its first operand and
  the other operands whole, and writes back the same rows of its result. Each entry of the stage function depends on
  one row of the first operand only, so what point `t` writes back is those rows of `projAdd` of the WHOLE operand
  arrays; the ten tiles cover the 50000 rows, so the result array ends holding `projAdd` of the operand arrays as
  the kernel found them. Stated for any contents `V` at the kernel's entry.
-/
import proofs.«126186_j44573170598274_1_alg».proof.Proof.Gen.KernelIdeal.Frame
import proofs.«126186_j44573170598274_1_alg».proof.Proof.Payloads
import Idealize.ShloMosaic.Lib.Pipeline.Value

set_option maxRecDepth 16384

noncomputable section

namespace Cert.KernelIdeal.Hand

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the grid: a tiled window's block index is (t, 0), a whole window's is (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Input window 0's tile at grid point `t` is rows `5000 t … 5000 t + 4999` of its array. -/
theorem tile0 (c : Dev nD) (t : Fin cfg0.N) (y : S5000x128.Idx) (i : S50000x128.Idx)
    (h0 : (i 0).val = t.val * 5000 + (y 0).val) (h1 : (i 1).val = (y 1).val) :
    iblk0 V c 0 t y = V c main_arg0 i := by
  obtain ⟨e00, e01, e10, e11, e20, e21, e30, e31⟩ := idx0 t
  show V c main_arg0 (((cfg0.win 0).blk t).view.emb y) = _
  refine congrArg (V c main_arg0) (funext fun a => Fin.ext ?_)
  match a with
  | ⟨0, _⟩ => show win0_0.index t (0 : Fin 2) * 5000 + 1 * (y 0).val = (i 0).val; rw [e00, h0]; omega
  | ⟨1, _⟩ => show win0_0.index t (1 : Fin 2) * 128 + 1 * (y 1).val = (i 1).val; rw [e01, h1]; omega

/-- Input window 1 is its whole array at every grid point. -/
theorem bias0 (c : Dev nD) (t : Fin cfg0.N) (z : S1x128.Idx) :
    iblk0 V c 1 t z = V c main_v37 z := by
  obtain ⟨e00, e01, e10, e11, e20, e21, e30, e31⟩ := idx0 t
  show V c main_v37 (((cfg0.win 1).blk t).view.emb z) = _
  refine congrArg (V c main_v37) (funext fun a => Fin.ext ?_)
  match a with
  | ⟨0, _⟩ => show win0_1.index t (0 : Fin 2) * 1 + 1 * (z 0).val = (z 0).val; rw [e10]; omega
  | ⟨1, _⟩ => show win0_1.index t (1 : Fin 2) * 128 + 1 * (z 1).val = (z 1).val; rw [e11]; omega

/-- Input window 2 is its whole array at every grid point. -/
theorem mat0 (c : Dev nD) (t : Fin cfg0.N) (z : S128x128.Idx) :
    iblk0 V c 2 t z = V c main_arg7 z := by
  obtain ⟨e00, e01, e10, e11, e20, e21, e30, e31⟩ := idx0 t
  show V c main_arg7 (((cfg0.win 2).blk t).view.emb z) = _
  refine congrArg (V c main_arg7) (funext fun a => Fin.ext ?_)
  match a with
  | ⟨0, _⟩ => show win0_2.index t (0 : Fin 2) * 128 + 1 * (z 0).val = (z 0).val; rw [e20]; omega
  | ⟨1, _⟩ => show win0_2.index t (1 : Fin 2) * 128 + 1 * (z 1).val = (z 1).val; rw [e21]; omega

/-- The body's result at entry `y` of point `t`'s tile is the stage function of the whole arrays at the entry `i` of the
    array that `y` is (row `5000 t + y₀`, the same column). -/
theorem point0 (c : Dev nD) (t : Fin cfg0.N) (y : S5000x128.Idx) (i : S50000x128.Idx)
    (h0 : (i 0).val = t.val * 5000 + (y 0).val) (h1 : (i 1).val = (y 1).val) :
    k0_pay1 (iblk0 V c 0 t) (iblk0 V c 1 t) (iblk0 V c 2 t) y = projAdd (R := 50000) (V c main_arg0) (V c main_v37) (V c main_arg7) i := by
  refine (congrFun (pay0_eq _ _ _) y).trans ?_
  unfold projAdd
  refine Finset.sum_congr rfl fun k _ => ?_
  exact congrArg₂ (fun a b => a * b)
    (congrArg₂ (fun a b => a + b) (tile0 V c t (rowAt y k) (rowAt i k) h0 rfl) (bias0 V c t (loneK k)))
    ((mat0 V c t (colAt k y)).trans (congrArg (V c main_arg7) (colAt_congr k y i h1)))

/-- What point `t` writes back is its tile of the stage function of the whole arrays. -/
theorem flushed0 (c : Dev nD) (t : Fin cfg0.N) :
    (dat0 V c).flushed 3 t = ((cfg0.win 3).blk t).view.read (Elt Ideal) (projAdd (R := 50000) (V c main_arg0) (V c main_v37) (V c main_arg7)) := by
  show (cfg0.win 3).cut (grid0.coords t) ((dat0 V c).after 3 t) = _
  rw [after0_3]
  unfold out0_3
  rw [View.canon_unit_zero hz]
  simp only [View.ld_unit_zero (S := S5000x128) hz, View.ld_unit_zero (S := S1x128) hz, View.ld_unit_zero (S := S128x128) hz]
  obtain ⟨e00, e01, e10, e11, e20, e21, e30, e31⟩ := idx0 t
  funext j
  refine point0 V c t j (((cfg0.win 3).blk t).view.emb j) ?_ ?_
  · show win0_3.index t (0 : Fin 2) * 5000 + 1 * (j 0).val = t.val * 5000 + (j 0).val
    rw [e30]; omega
  · show win0_3.index t (1 : Fin 2) * 128 + 1 * (j 1).val = (j 1).val
    rw [e31]; omega

/-- An entry of the result array is in point `t`'s tile iff each coordinate is in the tile's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v38).slice (win0_3.rect t)).set ↔ _
  rw [View.set_slice_whole, Rect.mem_set_unit]
  exact Iff.rfl

/-- Every row is in the tile of the point `row / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 128 ≤ (i 1).val ∧ (i 1).val < win0_3.index t (1 : Fin 2) * 128 + 128
    rw [e31]; omega

/-- THE RESULT ARRAY after the kernel: the stage function of the operand arrays as the kernel found them. -/
theorem final0 (c : Dev nD) :
    (dat0 V c).arrAt 3 cfg0.N = projAdd (R := 50000) (V c main_arg0) (V c main_v37) (V c main_arg7) :=
  (dat0 V c).arrAt_eq_of_cover 3 _ (fun t _ => flushed0 V c t) (fun i => cover0 i)

end Cert.KernelIdeal.Hand

end
-- ==== Proof.Region1.lean ====
/-
  The first activation kernel, read as a value: its result array is `biasRelu` of the aggregated messages and the first bias row.

  The kernel runs over ten grid points; at point `t` it loads rows `5000 t … 5000 t + 4999` of its first operand and
  the other operands whole, and writes back the same rows of its result. Each entry of the stage function depends on
  one row of the first operand only, so what point `t` writes back is those rows of `biasRelu` of the WHOLE operand
  arrays; the ten tiles cover the 50000 rows, so the result array ends holding `biasRelu` of the operand arrays as
  the kernel found them. Stated for any contents `V` at the kernel's entry.
-/
import proofs.«126186_j44573170598274_1_alg».proof.Proof.Gen.KernelIdeal.Frame
import proofs.«126186_j44573170598274_1_alg».proof.Proof.Payloads
import Idealize.ShloMosaic.Lib.Pipeline.Value

set_option maxRecDepth 16384

noncomputable section

namespace Cert.KernelIdeal.Hand

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the grid: a tiled window's block index is (t, 0), a whole window's is (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Input window 0's tile at grid point `t` is rows `5000 t … 5000 t + 4999` of its array. -/
theorem tile1 (c : Dev nD) (t : Fin cfg1.N) (y : S5000x128.Idx) (i : S50000x128.Idx)
    (h0 : (i 0).val = t.val * 5000 + (y 0).val) (h1 : (i 1).val = (y 1).val) :
    iblk1 V c 0 t y = V c main_v51 i := by
  obtain ⟨e00, e01, e10, e11, e20, e21⟩ := idx1 t
  show V c main_v51 (((cfg1.win 0).blk t).view.emb y) = _
  refine congrArg (V c main_v51) (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- Input window 1 is its whole array at every grid point. -/
theorem bias1 (c : Dev nD) (t : Fin cfg1.N) (z : S1x128.Idx) :
    iblk1 V c 1 t z = V c main_v52 z := by
  obtain ⟨e00, e01, e10, e11, e20, e21⟩ := idx1 t
  show V c main_v52 (((cfg1.win 1).blk t).view.emb z) = _
  refine congrArg (V c main_v52) (funext fun a => Fin.ext ?_)
  match a with
  | ⟨0, _⟩ => show win1_1.index t (0 : Fin 2) * 1 + 1 * (z 0).val = (z 0).val; rw [e10]; omega
  | ⟨1, _⟩ => show win1_1.index t (1 : Fin 2) * 128 + 1 * (z 1).val = (z 1).val; rw [e11]; omega

/-- The body's result at entry `y` of point `t`'s tile is the stage function of the whole arrays at the entry `i` of the
    array that `y` is (row `5000 t + y₀`, the same column). -/
theorem point1 (c : Dev nD) (t : Fin cfg1.N) (y : S5000x128.Idx) (i : S50000x128.Idx)
    (h0 : (i 0).val = t.val * 5000 + (y 0).val) (h1 : (i 1).val = (y 1).val) :
    k1_pay1 (iblk1 V c 0 t) (iblk1 V c 1 t) y = biasRelu (R := 50000) (V c main_v51) (V c main_v52) i := by
  refine (congrFun (pay1_eq _ _) y).trans ?_
  unfold biasRelu
  exact congrArg₂ (fun a b => max (a + b) (Ideal.ofBits .f32 0x00000000#32)) (tile1 V c t y i h0 h1)
    ((bias1 V c t (lone y)).trans (congrArg (V c main_v52) (lone_congr y i h1)))

/-- What point `t` writes back is its tile of the stage function of the whole arrays. -/
theorem flushed1 (c : Dev nD) (t : Fin cfg1.N) :
    (dat1 V c).flushed 2 t = ((cfg1.win 2).blk t).view.read (Elt Ideal) (biasRelu (R := 50000) (V c main_v51) (V c main_v52)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx1 t
  funext j
  refine point1 V c t j (((cfg1.win 2).blk t).view.emb j) ?_ ?_
  · show win1_2.index t (0 : Fin 2) * 5000 + 1 * (j 0).val = t.val * 5000 + (j 0).val
    rw [e20]; omega
  · show win1_2.index t (1 : Fin 2) * 128 + 1 * (j 1).val = (j 1).val
    rw [e21]; omega

/-- An entry of the result array is in point `t`'s tile iff each coordinate is in the tile's range. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v53).slice (win1_2.rect t)).set ↔ _
  rw [View.set_slice_whole, Rect.mem_set_unit]
  exact Iff.rfl

/-- Every row is in the tile of the point `row / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e00, e01, e10, e11, e20, e21⟩ := idx1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e20, ht]; omega
  | ⟨1, _⟩ =>
    show win1_2.index t (1 : Fin 2) * 128 ≤ (i 1).val ∧ (i 1).val < win1_2.index t (1 : Fin 2) * 128 + 128
    rw [e21]; omega

/-- THE RESULT ARRAY after the kernel: the stage function of the operand arrays as the kernel found them. -/
theorem final1 (c : Dev nD) :
    (dat1 V c).arrAt 2 cfg1.N = biasRelu (R := 50000) (V c main_v51) (V c main_v52) :=
  (dat1 V c).arrAt_eq_of_cover 2 _ (fun t _ => flushed1 V c t) (fun i => cover1 i)

end Cert.KernelIdeal.Hand

end
-- ==== Proof.Region2.lean ====
/-
  The second projection kernel, read as a value: its result array is `proj` of the first layer's activations and the second weight matrix.

  The kernel runs over ten grid points; at point `t` it loads rows `5000 t … 5000 t + 4999` of its first operand and
  the other operands whole, and writes back the same rows of its result. Each entry of the stage function depends on
  one row of the first operand only, so what point `t` writes back is those rows of `proj` of the WHOLE operand
  arrays; the ten tiles cover the 50000 rows, so the result array ends holding `proj` of the operand arrays as
  the kernel found them. Stated for any contents `V` at the kernel's entry.
-/
import proofs.«126186_j44573170598274_1_alg».proof.Proof.Gen.KernelIdeal.Frame
import proofs.«126186_j44573170598274_1_alg».proof.Proof.Payloads
import Idealize.ShloMosaic.Lib.Pipeline.Value

set_option maxRecDepth 16384

noncomputable section

namespace Cert.KernelIdeal.Hand

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the grid: a tiled window's block index is (t, 0), a whole window's is (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Input window 0's tile at grid point `t` is rows `5000 t … 5000 t + 4999` of its array. -/
theorem tile2 (c : Dev nD) (t : Fin cfg2.N) (y : S5000x128.Idx) (i : S50000x128.Idx)
    (h0 : (i 0).val = t.val * 5000 + (y 0).val) (h1 : (i 1).val = (y 1).val) :
    iblk2 V c 0 t y = V c main_v53 i := by
  obtain ⟨e00, e01, e10, e11, e20, e21⟩ := idx2 t
  show V c main_v53 (((cfg2.win 0).blk t).view.emb y) = _
  refine congrArg (V c main_v53) (funext fun a => Fin.ext ?_)
  match a with
  | ⟨0, _⟩ => show win2_0.index t (0 : Fin 2) * 5000 + 1 * (y 0).val = (i 0).val; rw [e00, h0]; omega
  | ⟨1, _⟩ => show win2_0.index t (1 : Fin 2) * 128 + 1 * (y 1).val = (i 1).val; rw [e01, h1]; omega

/-- Input window 1 is its whole array at every grid point. -/
theorem mat2 (c : Dev nD) (t : Fin cfg2.N) (z : S128x128.Idx) :
    iblk2 V c 1 t z = V c main_arg9 z := by
  obtain ⟨e00, e01, e10, e11, e20, e21⟩ := idx2 t
  show V c main_arg9 (((cfg2.win 1).blk t).view.emb z) = _
  refine congrArg (V c main_arg9) (funext fun a => Fin.ext ?_)
  match a with
  | ⟨0, _⟩ => show win2_1.index t (0 : Fin 2) * 128 + 1 * (z 0).val = (z 0).val; rw [e10]; omega
  | ⟨1, _⟩ => show win2_1.index t (1 : Fin 2) * 128 + 1 * (z 1).val = (z 1).val; rw [e11]; omega

/-- The body's result at entry `y` of point `t`'s tile is the stage function of the whole arrays at the entry `i` of the
    array that `y` is (row `5000 t + y₀`, the same column). -/
theorem point2 (c : Dev nD) (t : Fin cfg2.N) (y : S5000x128.Idx) (i : S50000x128.Idx)
    (h0 : (i 0).val = t.val * 5000 + (y 0).val) (h1 : (i 1).val = (y 1).val) :
    k2_pay1 (iblk2 V c 0 t) (iblk2 V c 1 t) y = proj (R := 50000) (V c main_v53) (V c main_arg9) i := by
  refine (congrFun (pay2_eq _ _) y).trans ?_
  unfold proj
  refine Finset.sum_congr rfl fun k _ => ?_
  exact congrArg₂ (fun a b => a * b) (tile2 V c t (rowAt y k) (rowAt i k) h0 rfl)
    ((mat2 V c t (colAt k y)).trans (congrArg (V c main_arg9) (colAt_congr k y i h1)))

/-- What point `t` writes back is its tile of the stage function of the whole arrays. -/
theorem flushed2 (c : Dev nD) (t : Fin cfg2.N) :
    (dat2 V c).flushed 2 t = ((cfg2.win 2).blk t).view.read (Elt Ideal) (proj (R := 50000) (V c main_v53) (V c main_arg9)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx2 t
  funext j
  refine point2 V c t j (((cfg2.win 2).blk t).view.emb j) ?_ ?_
  · show win2_2.index t (0 : Fin 2) * 5000 + 1 * (j 0).val = t.val * 5000 + (j 0).val
    rw [e20]; omega
  · show win2_2.index t (1 : Fin 2) * 128 + 1 * (j 1).val = (j 1).val
    rw [e21]; omega

/-- An entry of the result array is in point `t`'s tile iff each coordinate is in the tile's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54).slice (win2_2.rect t)).set ↔ _
  rw [View.set_slice_whole, Rect.mem_set_unit]
  exact Iff.rfl

/-- Every row is in the tile of the point `row / 5000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e00, e01, e10, e11, e20, e21⟩ := idx2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 128 ≤ (i 1).val ∧ (i 1).val < win2_2.index t (1 : Fin 2) * 128 + 128
    rw [e21]; omega

/-- THE RESULT ARRAY after the kernel: the stage function of the operand arrays as the kernel found them. -/
theorem final2 (c : Dev nD) :
    (dat2 V c).arrAt 2 cfg2.N = proj (R := 50000) (V c main_v53) (V c main_arg9) :=
  (dat2 V c).arrAt_eq_of_cover 2 _ (fun t _ => flushed2 V c t) (fun i => cover2 i)

end Cert.KernelIdeal.Hand

end
-- ==== Proof.Region3.lean ====
/-
  The second activation kernel, read as a value: its result array is `biasRelu` of the aggregated messages and the second bias row.

  The kernel runs over ten grid points; at point `t` it loads rows `5000 t … 5000 t + 4999` of its first operand and
  the other operands whole, and writes back the same rows of its result. Each entry of the stage function depends on
  one row of the first operand only, so what point `t` writes back is those rows of `biasRelu` of the WHOLE operand
  arrays; the ten tiles cover the 50000 rows, so the result array ends holding `biasRelu` of the operand arrays as
  the kernel found them. Stated for any contents `V` at the kernel's entry.
-/
import proofs.«126186_j44573170598274_1_alg».proof.Proof.Gen.KernelIdeal.Frame
import proofs.«126186_j44573170598274_1_alg».proof.Proof.Payloads
import Idealize.ShloMosaic.Lib.Pipeline.Value

set_option maxRecDepth 16384

noncomputable section

namespace Cert.KernelIdeal.Hand

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the grid: a tiled window's block index is (t, 0), a whole window's is (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Input window 0's tile at grid point `t` is rows `5000 t … 5000 t + 4999` of its array. -/
theorem tile3 (c : Dev nD) (t : Fin cfg3.N) (y : S5000x128.Idx) (i : S50000x128.Idx)
    (h0 : (i 0).val = t.val * 5000 + (y 0).val) (h1 : (i 1).val = (y 1).val) :
    iblk3 V c 0 t y = V c main_v67 i := by
  obtain ⟨e00, e01, e10, e11, e20, e21⟩ := idx3 t
  show V c main_v67 (((cfg3.win 0).blk t).view.emb y) = _
  refine congrArg (V c main_v67) (funext fun a => Fin.ext ?_)
  match a with
  | ⟨0, _⟩ => show win3_0.index t (0 : Fin 2) * 5000 + 1 * (y 0).val = (i 0).val; rw [e00, h0]; omega
  | ⟨1, _⟩ => show win3_0.index t (1 : Fin 2) * 128 + 1 * (y 1).val = (i 1).val; rw [e01, h1]; omega

/-- Input window 1 is its whole array at every grid point. -/
theorem bias3 (c : Dev nD) (t : Fin cfg3.N) (z : S1x128.Idx) :
    iblk3 V c 1 t z = V c main_v68 z := by
  obtain ⟨e00, e01, e10, e11, e20, e21⟩ := idx3 t
  show V c main_v68 (((cfg3.win 1).blk t).view.emb z) = _
  refine congrArg (V c main_v68) (funext fun a => Fin.ext ?_)
  match a with
  | ⟨0, _⟩ => show win3_1.index t (0 : Fin 2) * 1 + 1 * (z 0).val = (z 0).val; rw [e10]; omega
  | ⟨1, _⟩ => show win3_1.index t (1 : Fin 2) * 128 + 1 * (z 1).val = (z 1).val; rw [e11]; omega

/-- The body's result at entry `y` of point `t`'s tile is the stage function of the whole arrays at the entry `i` of the
    array that `y` is (row `5000 t + y₀`, the same column). -/
theorem point3 (c : Dev nD) (t : Fin cfg3.N) (y : S5000x128.Idx) (i : S50000x128.Idx)
    (h0 : (i 0).val = t.val * 5000 + (y 0).val) (h1 : (i 1).val = (y 1).val) :
    k3_pay1 (iblk3 V c 0 t) (iblk3 V c 1 t) y = biasRelu (R := 50000) (V c main_v67) (V c main_v68) i := by
  refine (congrFun (pay3_eq _ _) y).trans ?_
  unfold biasRelu
  exact congrArg₂ (fun a b => max (a + b) (Ideal.ofBits .f32 0x00000000#32)) (tile3 V c t y i h0 h1)
    ((bias3 V c t (lone y)).trans (congrArg (V c main_v68) (lone_congr y i h1)))

/-- What point `t` writes back is its tile of the stage function of the whole arrays. -/
theorem flushed3 (c : Dev nD) (t : Fin cfg3.N) :
    (dat3 V c).flushed 2 t = ((cfg3.win 2).blk t).view.read (Elt Ideal) (biasRelu (R := 50000) (V c main_v67) (V c main_v68)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := idx3 t
  funext j
  refine point3 V c t j (((cfg3.win 2).blk t).view.emb j) ?_ ?_
  · show win3_2.index t (0 : Fin 2) * 5000 + 1 * (j 0).val = t.val * 5000 + (j 0).val
    rw [e20]; omega
  · show win3_2.index t (1 : Fin 2) * 128 + 1 * (j 1).val = (j 1).val
    rw [e21]; omega

/-- An entry of the result array is in point `t`'s tile iff each coordinate is in the tile's range. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v69).slice (win3_2.rect t)).set ↔ _
  rw [View.set_slice_whole, Rect.mem_set_unit]
  exact Iff.rfl

/-- Every row is in the tile of the point `row / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e00, e01, e10, e11, e20, e21⟩ := idx3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e20, ht]; omega
  | ⟨1, _⟩ =>
    show win3_2.index t (1 : Fin 2) * 128 ≤ (i 1).val ∧ (i 1).val < win3_2.index t (1 : Fin 2) * 128 + 128
    rw [e21]; omega

/-- THE RESULT ARRAY after the kernel: the stage function of the operand arrays as the kernel found them. -/
theorem final3 (c : Dev nD) :
    (dat3 V c).arrAt 2 cfg3.N = biasRelu (R := 50000) (V c main_v67) (V c main_v68) :=
  (dat3 V c).arrAt_eq_of_cover 2 _ (fun t _ => flushed3 V c t) (fun i => cover3 i)

end Cert.KernelIdeal.Hand

end
-- ==== Proof.Region4.lean ====
/-
  The output heads' kernel, read as a value: its result array is `linBias` of the second layer's activations, the two heads' weight matrices side by side and their bias rows side by side.

  The kernel runs over ten grid points; at point `t` it loads rows `5000 t … 5000 t + 4999` of its first operand and
  the other operands whole, and writes back the same rows of its result. Each entry of the stage function depends on
  one row of the first operand only, so what point `t` writes back is those rows of `linBias` of the WHOLE operand
  arrays; the ten tiles cover the 50000 rows, so the result array ends holding `linBias` of the operand arrays as
  the kernel found them. Stated for any contents `V` at the kernel's entry.
-/
import proofs.«126186_j44573170598274_1_alg».proof.Proof.Gen.KernelIdeal.Frame
import proofs.«126186_j44573170598274_1_alg».proof.Proof.Payloads
import Idealize.ShloMosaic.Lib.Pipeline.Value

set_option maxRecDepth 16384

noncomputable section

namespace Cert.KernelIdeal.Hand

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the grid: a tiled window's block index is (t, 0), a whole window's is (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Input window 0's tile at grid point `t` is rows `5000 t … 5000 t + 4999` of its array. -/
theorem tile4 (c : Dev nD) (t : Fin cfg4.N) (y : S5000x128.Idx) (i : S50000x128.Idx)
    (h0 : (i 0).val = t.val * 5000 + (y 0).val) (h1 : (i 1).val = (y 1).val) :
    iblk4 V c 0 t y = V c main_v69 i := by
  obtain ⟨e00, e01, e10, e11, e20, e21, e30, e31⟩ := idx4 t
  show V c main_v69 (((cfg4.win 0).blk t).view.emb y) = _
  refine congrArg (V c main_v69) (funext fun a => Fin.ext ?_)
  match a with
  | ⟨0, _⟩ => show win4_0.index t (0 : Fin 2) * 5000 + 1 * (y 0).val = (i 0).val; rw [e00, h0]; omega
  | ⟨1, _⟩ => show win4_0.index t (1 : Fin 2) * 128 + 1 * (y 1).val = (i 1).val; rw [e01, h1]; omega

/-- Input window 1 is its whole array at every grid point. -/
theorem mat4 (c : Dev nD) (t : Fin cfg4.N) (z : S128x128.Idx) :
    iblk4 V c 1 t z = V c main_v70 z := by
  obtain ⟨e00, e01, e10, e11, e20, e21, e30, e31⟩ := idx4 t
  show V c main_v70 (((cfg4.win 1).blk t).view.emb z) = _
  refine congrArg (V c main_v70) (funext fun a => Fin.ext ?_)
  match a with
  | ⟨0, _⟩ => show win4_1.index t (0 : Fin 2) * 128 + 1 * (z 0).val = (z 0).val; rw [e10]; omega
  | ⟨1, _⟩ => show win4_1.index t (1 : Fin 2) * 128 + 1 * (z 1).val = (z 1).val; rw [e11]; omega

/-- Input window 2 is its whole array at every grid point. -/
theorem bias4 (c : Dev nD) (t : Fin cfg4.N) (z : S1x128.Idx) :
    iblk4 V c 2 t z = V c main_v72 z := by
  obtain ⟨e00, e01, e10, e11, e20, e21, e30, e31⟩ := idx4 t
  show V c main_v72 (((cfg4.win 2).blk t).view.emb z) = _
  refine congrArg (V c main_v72) (funext fun a => Fin.ext ?_)
  match a with
  | ⟨0, _⟩ => show win4_2.index t (0 : Fin 2) * 1 + 1 * (z 0).val = (z 0).val; rw [e20]; omega
  | ⟨1, _⟩ => show win4_2.index t (1 : Fin 2) * 128 + 1 * (z 1).val = (z 1).val; rw [e21]; omega

/-- The body's result at entry `y` of point `t`'s tile is the stage function of the whole arrays at the entry `i` of the
    array that `y` is (row `5000 t + y₀`, the same column). -/
theorem point4 (c : Dev nD) (t : Fin cfg4.N) (y : S5000x128.Idx) (i : S50000x128.Idx)
    (h0 : (i 0).val = t.val * 5000 + (y 0).val) (h1 : (i 1).val = (y 1).val) :
    k4_pay1 (iblk4 V c 0 t) (iblk4 V c 1 t) (iblk4 V c 2 t) y = linBias (R := 50000) (V c main_v69) (V c main_v70) (V c main_v72) i := by
  refine (congrFun (pay4_eq _ _ _) y).trans ?_
  unfold linBias
  refine congrArg₂ (fun a b => a + b) (Finset.sum_congr rfl fun k _ => ?_)
    ((bias4 V c t (lone y)).trans (congrArg (V c main_v72) (lone_congr y i h1)))
  exact congrArg₂ (fun a b => a * b) (tile4 V c t (rowAt y k) (rowAt i k) h0 rfl)
    ((mat4 V c t (colAt k y)).trans (congrArg (V c main_v70) (colAt_congr k y i h1)))

/-- What point `t` writes back is its tile of the stage function of the whole arrays. -/
theorem flushed4 (c : Dev nD) (t : Fin cfg4.N) :
    (dat4 V c).flushed 3 t = ((cfg4.win 3).blk t).view.read (Elt Ideal) (linBias (R := 50000) (V c main_v69) (V c main_v70) (V c main_v72)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx4 t
  funext j
  refine point4 V c t j (((cfg4.win 3).blk t).view.emb j) ?_ ?_
  · show win4_3.index t (0 : Fin 2) * 5000 + 1 * (j 0).val = t.val * 5000 + (j 0).val
    rw [e30]; omega
  · show win4_3.index t (1 : Fin 2) * 128 + 1 * (j 1).val = (j 1).val
    rw [e31]; omega

/-- An entry of the result array is in point `t`'s tile iff each coordinate is in the tile's range. -/
theorem mem_blk4 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v73).slice (win4_3.rect t)).set ↔ _
  rw [View.set_slice_whole, Rect.mem_set_unit]
  exact Iff.rfl

/-- Every row is in the tile of the point `row / 5000`. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31⟩ := idx4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    rw [e30, ht]; omega
  | ⟨1, _⟩ =>
    show win4_3.index t (1 : Fin 2) * 128 ≤ (i 1).val ∧ (i 1).val < win4_3.index t (1 : Fin 2) * 128 + 128
    rw [e31]; omega

/-- THE RESULT ARRAY after the kernel: the stage function of the operand arrays as the kernel found them. -/
theorem final4 (c : Dev nD) :
    (dat4 V c).arrAt 3 cfg4.N = linBias (R := 50000) (V c main_v69) (V c main_v70) (V c main_v72) :=
  (dat4 V c).arrAt_eq_of_cover 3 _ (fun t _ => flushed4 V c t) (fun i => cover4 i)

end Cert.KernelIdeal.Hand

end
-- ==== Proof.Bridge.lean ====
/-
  The reference's node-wise computations, written by jnp as host operations, are the stage functions of `Cert.Stage`
  on whole arrays, entry by entry over the extended reals:

  * `(x + h) @ W`, with the row `h` broadcast over the nodes, is `projAdd x h W`;
  * `relu (a + b)`, with the bias vector `b` broadcast over the nodes, is `biasRelu a b'` for the row `b'` that holds `b`;
  * `x @ W` is `proj x W`;
  * each output head `x @ W₁ + b₁` is 64 columns (from column `o`) of `linBias x Wc bc`, when the 128-column matrix
    `Wc` holds `W₁` in columns `o … o + 63` and the row `bc` holds `b₁` there — as the two heads' weights and biases
    set side by side do, at `o = 0` and `o = 64`.

  A product of matrices is read as the plain sum over the contracted feature; nothing here needs finiteness: the
  two sides are the same sums of the same products.
-/
import proofs.«126186_j44573170598274_1_alg».proof.Proof.Gen.ReferenceIdeal
import proofs.«126186_j44573170598274_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.Stage
open Idealize.ShloMosaic Idealize.ShloMosaic.ValueIdx

/-- The index (row of `y`, column `k`) of an array with another number of columns. -/
abbrev rowK {R C K : Nat} (y : (⟨2, ![R, C]⟩ : Shape).Idx) (k : Fin K) : (⟨2, ![R, K]⟩ : Shape).Idx :=
  ix2 (⟨(y 0).val, idx2_lt0 y⟩ : Fin R) k

/-! ## The host's matrix products at an entry -/

theorem lhsR_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsR_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhsR_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhsR_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product with a [128, 128] matrix at entry (r, c): the sum over the 128 contracted features. -/
theorem dotR_at (l : FVec Ideal S50000x128 .f32) (r : FVec Ideal S128x128 .f32) (i : S50000x128.Idx) :
    Host.dotGeneral dot_S50000x128_S128x128_S50000x128_1_0_0_1_n_n none l r i = ∑ k : Fin 128, l (rowAt i k) * r (colAt k i) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = rowAt i k := funext fun a => Fin.ext (by
    match a with
    | ⟨0, _⟩ => exact lhsR_0 _ _
    | ⟨1, _⟩ => exact (lhsR_1 _ _).trans hk)
  have er : dot_S50000x128_S128x128_S50000x128_1_0_0_1_n_n.rhsIdx i ((ValueIdx.contrEquiv1 dot_S50000x128_S128x128_S50000x128_1_0_0_1_n_n 128 rfl rfl).symm k) = colAt k i := funext fun a => Fin.ext (by
    match a with
    | ⟨0, _⟩ => exact (rhsR_0 _ _).trans hk
    | ⟨1, _⟩ => exact rhsR_1 _ _)
  rw [el, er]

theorem lhsH_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhsH_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhsH_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhsH_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's product with a [128, 64] matrix at entry (r, c): the sum over the 128 contracted features. -/
theorem dotH_at (l : FVec Ideal S50000x128 .f32) (r : FVec Ideal S128x64 .f32) (i : S50000x64.Idx) :
    Host.dotGeneral dot_S50000x128_S128x64_S50000x64_1_0_0_1_n_n none l r i = ∑ k : Fin 128, l (rowK i k) * r (colAt k i) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = rowK i k := funext fun a => Fin.ext (by
    match a with
    | ⟨0, _⟩ => exact lhsH_0 _ _
    | ⟨1, _⟩ => exact (lhsH_1 _ _).trans hk)
  have er : dot_S50000x128_S128x64_S50000x64_1_0_0_1_n_n.rhsIdx i ((ValueIdx.contrEquiv1 dot_S50000x128_S128x64_S50000x64_1_0_0_1_n_n 128 rfl rfl).symm k) = colAt k i := funext fun a => Fin.ext (by
    match a with
    | ⟨0, _⟩ => exact (rhsH_0 _ _).trans hk
    | ⟨1, _⟩ => exact rhsH_1 _ _)
  rw [el, er]

/-! ## Broadcasts at an entry -/

/-- A row broadcast over the nodes, at entry (r, c), is the row at c. -/
theorem bcastRow_at (h : FVec Ideal S1x128 .f32) (j : S50000x128.Idx) :
    broadcastInDim S50000x128 ![0, 1] bcast_S1x128_S50000x128_0_1 h j = h (lone j) :=
  broadcastInDim_apply _ bcast_S1x128_S50000x128_0_1 h j (lone j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- A 128-vector laid as a row, at (0, c), is the vector at c. -/
theorem bcastVec_at (b : FVec Ideal S128 .f32) (j : S1x128.Idx) :
    broadcastInDim S1x128 ![1] bcast_S128_S1x128_1 b j = b (ix1 (⟨(j 1).val, idx2_lt1 j⟩ : Fin 128)) :=
  broadcastInDim_apply _ bcast_S128_S1x128_1 b j _ (fun a => match a with
    | ⟨0, _⟩ => by show (j 1).val = if (128 : Nat) = 1 then 0 else (j 1).val; rw [if_neg (by decide)])

/-- A 64-wide row broadcast over the nodes, at entry (r, c), is the row at c. -/
theorem bcastRow64_at (h : FVec Ideal S1x64 .f32) (j : S50000x64.Idx) :
    broadcastInDim S50000x64 ![0, 1] bcast_S1x64_S50000x64_0_1 h j = h (lone j) :=
  broadcastInDim_apply _ bcast_S1x64_S50000x64_0_1 h j (lone j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- A 64-vector laid as a row, at (0, c), is the vector at c. -/
theorem bcastVec64_at (b : FVec Ideal S64 .f32) (j : S1x64.Idx) :
    broadcastInDim S1x64 ![1] bcast_S64_S1x64_1 b j = b (ix1 (⟨(j 1).val, idx2_lt1 j⟩ : Fin 64)) :=
  broadcastInDim_apply _ bcast_S64_S1x64_1 b j _ (fun a => match a with
    | ⟨0, _⟩ => by show (j 1).val = if (64 : Nat) = 1 then 0 else (j 1).val; rw [if_neg (by decide)])

/-! ## The four stages -/

/-- `(x + h) @ W` is `projAdd x h W`. -/
theorem projAdd_ref (x : FVec Ideal S50000x128 .f32) (h : FVec Ideal S1x128 .f32) (W : FVec Ideal S128x128 .f32) :
    Host.dotGeneral dot_S50000x128_S128x128_S50000x128_1_0_0_1_n_n none (addf x (broadcastInDim S50000x128 ![0, 1] bcast_S1x128_S50000x128_0_1 h)) W
      = projAdd (R := 50000) x h W := by
  funext i
  refine (dotR_at _ W i).trans ?_
  unfold projAdd
  refine Finset.sum_congr rfl fun k _ => ?_
  refine congrArg (· * W (colAt k i)) ?_
  show x (rowAt i k) + broadcastInDim S50000x128 ![0, 1] bcast_S1x128_S50000x128_0_1 h (rowAt i k) = x (rowAt i k) + h (loneK k)
  rw [bcastRow_at]

/-- `x @ W` is `proj x W`. -/
theorem proj_ref (x : FVec Ideal S50000x128 .f32) (W : FVec Ideal S128x128 .f32) :
    Host.dotGeneral dot_S50000x128_S128x128_S50000x128_1_0_0_1_n_n none x W = proj (R := 50000) x W :=
  funext fun i => dotR_at x W i

/-- `relu (a + b)`, the bias a vector broadcast over the nodes and the zero a broadcast scalar, is `biasRelu a b'`
    for any row `b'` holding the vector `b`. -/
theorem biasRelu_ref (a : FVec Ideal S50000x128 .f32) (b : FVec Ideal S128 .f32) (b' : (⟨2, ![1, 128]⟩ : Shape).Idx → EReal)
    (hb : ∀ q : Fin 128, b' (ix2 (0 : Fin 1) q) = b (ix1 q)) :
    maximumf (addf a (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = biasRelu (R := 50000) a b' := by
  funext i
  show max (a i + broadcastInDim S50000x128 ![0, 1] bcast_S1x128_S50000x128_0_1 (broadcastInDim S1x128 ![1] bcast_S128_S1x128_1 b) i)
      (broadcastInDim S50000x128 ![] bcast_S_S50000x128 (constant (F := Ideal) S_ .f32 0x00000000#32) i)
    = max (a i + b' (lone i)) (Ideal.ofBits .f32 0x00000000#32)
  rw [bcastRow_at, bcastVec_at, broadcastInDim_apply _ bcast_S_S50000x128 (constant (F := Ideal) S_ .f32 0x00000000#32) i ix0 (fun a => a.elim0)]
  exact congrArg (fun z => max (a i + z) (Ideal.ofBits .f32 0x00000000#32)) (hb _).symm

/-- Two matrices of 64 columns side by side: the left one fills columns 0 … 63. -/
theorem catCols_left (W1 W2 : (⟨2, ![128, 64]⟩ : Shape).Idx → EReal)
    (h : Shape.Concatenates [(⟨2, ![128, 64]⟩ : Shape), ⟨2, ![128, 64]⟩] ⟨2, ![128, 128]⟩ 1) (k : Fin 128) (q : Fin 64) :
    concatenate ⟨2, ![128, 128]⟩ 1 [⟨⟨2, ![128, 64]⟩, W1⟩, ⟨⟨2, ![128, 64]⟩, W2⟩] h (ix2 k (⟨0 + q.val, by omega⟩ : Fin 128)) = W1 (ix2 k q) :=
  concatenate_pair_apply_left 1 W1 W2 h _ rfl (ix2 k q) (fun b => by
    match b with
    | ⟨0, _⟩ => rfl
    | ⟨1, _⟩ => exact (Nat.zero_add _).symm)

/-- … and the right one columns 64 … 127. -/
theorem catCols_right (W1 W2 : (⟨2, ![128, 64]⟩ : Shape).Idx → EReal)
    (h : Shape.Concatenates [(⟨2, ![128, 64]⟩ : Shape), ⟨2, ![128, 64]⟩] ⟨2, ![128, 128]⟩ 1) (k : Fin 128) (q : Fin 64) :
    concatenate ⟨2, ![128, 128]⟩ 1 [⟨⟨2, ![128, 64]⟩, W1⟩, ⟨⟨2, ![128, 64]⟩, W2⟩] h (ix2 k (⟨64 + q.val, by omega⟩ : Fin 128)) = W2 (ix2 k q) :=
  concatenate_pair_apply_right 1 W1 W2 h _ rfl rfl (ix2 k q) (fun b hb => by
    match b with
    | ⟨0, _⟩ => rfl
    | ⟨1, _⟩ => exact absurd rfl hb) (by show q.val + 64 = 64 + q.val; omega)

/-- Two 64-vectors end to end: the first fills entries 0 … 63. -/
theorem catVec_left (b1 b2 : (⟨1, ![64]⟩ : Shape).Idx → EReal)
    (h : Shape.Concatenates [(⟨1, ![64]⟩ : Shape), ⟨1, ![64]⟩] ⟨1, ![128]⟩ 0) (q : Fin 64) :
    concatenate ⟨1, ![128]⟩ 0 [⟨⟨1, ![64]⟩, b1⟩, ⟨⟨1, ![64]⟩, b2⟩] h (ix1 (⟨0 + q.val, by omega⟩ : Fin 128)) = b1 (ix1 q) :=
  concatenate_pair_apply_left 0 b1 b2 h _ rfl (ix1 q) (fun b => by
    match b with
    | ⟨0, _⟩ => exact (Nat.zero_add _).symm)

/-- … and the second entries 64 … 127. -/
theorem catVec_right (b1 b2 : (⟨1, ![64]⟩ : Shape).Idx → EReal)
    (h : Shape.Concatenates [(⟨1, ![64]⟩ : Shape), ⟨1, ![64]⟩] ⟨1, ![128]⟩ 0) (q : Fin 64) :
    concatenate ⟨1, ![128]⟩ 0 [⟨⟨1, ![64]⟩, b1⟩, ⟨⟨1, ![64]⟩, b2⟩] h (ix1 (⟨64 + q.val, by omega⟩ : Fin 128)) = b2 (ix1 q) :=
  concatenate_pair_apply_right 0 b1 b2 h _ rfl rfl (ix1 q) (fun b hb => by
    match b with
    | ⟨0, _⟩ => exact absurd rfl hb) (by show q.val + 64 = 64 + q.val; omega)

/-- One output head: columns `o … o + 63` of `linBias x Wc bc` are `x @ W₁ + b₁` when `Wc` holds `W₁` and `bc` holds `b₁` in
    those columns. -/
theorem head_ref (o : Nat) (ho : o + 64 ≤ 128) (x : FVec Ideal S50000x128 .f32)
    (Wc : (⟨2, ![128, 128]⟩ : Shape).Idx → EReal) (bc : (⟨2, ![1, 128]⟩ : Shape).Idx → EReal)
    (W1 : FVec Ideal S128x64 .f32) (b1 : FVec Ideal S64 .f32)
    (hW : ∀ (k : Fin 128) (q : Fin 64), Wc (ix2 k (⟨o + q.val, by omega⟩ : Fin 128)) = W1 (ix2 k q))
    (hb : ∀ q : Fin 64, bc (ix2 (0 : Fin 1) (⟨o + q.val, by omega⟩ : Fin 128)) = b1 (ix1 q))
    (sl : (⟨2, ![50000, 128]⟩ : Shape).Slices ![0, o] ⟨2, ![50000, 64]⟩) :
    extractStridedSlice ⟨2, ![50000, 64]⟩ ![0, o] (linBias (R := 50000) x Wc bc) sl
      = addf (Host.dotGeneral dot_S50000x128_S128x64_S50000x64_1_0_0_1_n_n none x W1)
          (broadcastInDim S50000x64 ![0, 1] bcast_S1x64_S50000x64_0_1 (broadcastInDim S1x64 ![1] bcast_S64_S1x64_1 b1)) := by
  funext j
  obtain ⟨p, q, rfl⟩ : ∃ (p : Fin 50000) (q : Fin 64), j = ix2 p q := ⟨j 0, j 1, eq_ix2 j⟩
  refine (slice2_axis1_apply o _ sl p q (⟨o + q.val, by omega⟩ : Fin 128) rfl).trans ?_
  show (∑ k : Fin 128, x (ix2 p k) * Wc (ix2 k (⟨o + q.val, by omega⟩ : Fin 128))) + bc (ix2 (0 : Fin 1) (⟨o + q.val, by omega⟩ : Fin 128))
    = Host.dotGeneral dot_S50000x128_S128x64_S50000x64_1_0_0_1_n_n none x W1 (ix2 p q)
      + broadcastInDim S50000x64 ![0, 1] bcast_S1x64_S50000x64_0_1 (broadcastInDim S1x64 ![1] bcast_S64_S1x64_1 b1) (ix2 p q)
  rw [dotH_at, bcastRow64_at, bcastVec64_at, hb q]
  refine congrArg (· + b1 (ix1 q)) (Finset.sum_congr rfl fun k _ => ?_)
  exact congrArg (x (ix2 p k) * ·) (hW k q)

end Cert.ReferenceIdeal.Hand

end
-- ==== Proof.Chain.lean ====
/-
  The idealized kernel program's buffers, boundary by boundary, as functions of the argument arrays — named by the
  reference's own stages.

  Both programs run the same graph glue on the host: the edge lists with self-loops, the degrees and their inverse
  square roots, the gather of transformed rows along edges, their scaling, and the scatter-add back to nodes. The
  kernel program differs only at the five node-wise stages, which it runs as tiled kernels. So the walk is: a
  buffer written by a host stretch is that stretch's operations of buffers already known (the same operations as the
  reference's, so the same stage of the reference); a buffer written by a kernel is the stage function of its
  operands (the kernel's value, `final0` … `final4`), which is the reference's host computation of the same stage
  (`Cert.ReferenceIdeal.Hand`); every other buffer is kept across a segment that does not write it. The gather and
  the scatter-add are never opened: equal operands give equal results.

  At the end the two result buffers hold the reference's two results of the same arguments.
-/
import proofs.«126186_j44573170598274_1_alg».proof.Proof.Region0
import proofs.«126186_j44573170598274_1_alg».proof.Proof.Region1
import proofs.«126186_j44573170598274_1_alg».proof.Proof.Region2
import proofs.«126186_j44573170598274_1_alg».proof.Proof.Region3
import proofs.«126186_j44573170598274_1_alg».proof.Proof.Region4
import proofs.«126186_j44573170598274_1_alg».proof.Proof.Bridge
import proofs.«126186_j44573170598274_1_alg».proof.Proof.RefRead
import Idealize.ShloMosaic.Lib.StableHlo.Run
import Idealize.ShloMosaic.Lib.ValueLayout

set_option maxRecDepth 16384

noncomputable section

namespace Cert.KernelIdeal.Hand

open Cert.KernelIdeal Cert.KernelIdeal.Gen Cert.Stage
open Cert.ReferenceIdeal.ReadP Cert.ReferenceIdeal.Hand
open Idealize.ShloMosaic Idealize.ShloMosaic.TcCoe Idealize.ShloMosaic.ValueIdx Idealize.SL.Sem Idealize.ShloMosaic.StableHlo

/-- A buffer that no operation of a host stretch writes keeps its contents across the stretch. -/
macro "host_keep " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## Before the first kernel: the graph glue and the embedding row -/

theorem W0_arg0 : W0 m ρ c (Proc.devRef .tc main_arg0) = (m ((c : Thread nD τ).loc main_arg0)) := rfl
theorem W0_arg1 : W0 m ρ c (Proc.devRef .tc main_arg1) = (m ((c : Thread nD τ).loc main_arg1)) := rfl
theorem W0_arg2 : W0 m ρ c (Proc.devRef .tc main_arg2) = (m ((c : Thread nD τ).loc main_arg2)) := rfl
theorem W0_arg3 : W0 m ρ c (Proc.devRef .tc main_arg3) = (m ((c : Thread nD τ).loc main_arg3)) := rfl
theorem W0_arg4 : W0 m ρ c (Proc.devRef .tc main_arg4) = (m ((c : Thread nD τ).loc main_arg4)) := rfl
theorem W0_arg5 : W0 m ρ c (Proc.devRef .tc main_arg5) = (m ((c : Thread nD τ).loc main_arg5)) := rfl
theorem W0_arg6 : W0 m ρ c (Proc.devRef .tc main_arg6) = (m ((c : Thread nD τ).loc main_arg6)) := rfl
theorem W0_arg7 : W0 m ρ c (Proc.devRef .tc main_arg7) = (m ((c : Thread nD τ).loc main_arg7)) := rfl
theorem W0_arg8 : W0 m ρ c (Proc.devRef .tc main_arg8) = (m ((c : Thread nD τ).loc main_arg8)) := rfl
theorem W0_arg9 : W0 m ρ c (Proc.devRef .tc main_arg9) = (m ((c : Thread nD τ).loc main_arg9)) := rfl
theorem W0_arg10 : W0 m ρ c (Proc.devRef .tc main_arg10) = (m ((c : Thread nD τ).loc main_arg10)) := rfl
theorem W0_arg11 : W0 m ρ c (Proc.devRef .tc main_arg11) = (m ((c : Thread nD τ).loc main_arg11)) := rfl
theorem W0_arg12 : W0 m ρ c (Proc.devRef .tc main_arg12) = (m ((c : Thread nD τ).loc main_arg12)) := rfl
theorem W0_arg13 : W0 m ρ c (Proc.devRef .tc main_arg13) = (m ((c : Thread nD τ).loc main_arg13)) := rfl
theorem W0_arg14 : W0 m ρ c (Proc.devRef .tc main_arg14) = (m ((c : Thread nD τ).loc main_arg14)) := rfl

set_option maxHeartbeats 8000000 in
/-- The source nodes of the edges and self-loops. -/
theorem W1_v3 : W1 m ρ c (Proc.devRef .tc main_v3) = (val_main_v3 (F := Ideal) (m ((c : Thread nD τ).loc main_arg1))) := by
  show StableHlo.after hostOps0 (W0 m ρ c) (Proc.devRef .tc main_v3) = _
  after_results_simp <;> rfl

set_option maxHeartbeats 8000000 in
/-- The target nodes of the edges and self-loops. -/
theorem W1_v6 : W1 m ρ c (Proc.devRef .tc main_v6) = (val_main_v6 (F := Ideal) (m ((c : Thread nD τ).loc main_arg1))) := by
  show StableHlo.after hostOps0 (W0 m ρ c) (Proc.devRef .tc main_v6) = _
  after_results_simp <;> rfl

set_option maxHeartbeats 8000000 in
/-- Which nodes have a positive degree. -/
theorem W1_v12 : W1 m ρ c (Proc.devRef .tc main_v12) = (val_main_v12 (F := Ideal) (m ((c : Thread nD τ).loc main_arg1))) := by
  show StableHlo.after hostOps0 (W0 m ρ c) (Proc.devRef .tc main_v12) = _
  after_results_simp <;> rfl

set_option maxHeartbeats 8000000 in
/-- The inverse square roots of the degrees. -/
theorem W1_v13 : W1 m ρ c (Proc.devRef .tc main_v13) = (val_main_v13 (F := Ideal) (m ((c : Thread nD τ).loc main_arg1))) := by
  show StableHlo.after hostOps0 (W0 m ρ c) (Proc.devRef .tc main_v13) = _
  after_results_simp <;> rfl

theorem W1_cst_2 : W1 m ρ c (Proc.devRef .tc main_cst_2) = val_main_cst_2 (F := Ideal) := by
  show StableHlo.after hostOps0 (W0 m ρ c) (Proc.devRef .tc main_cst_2) = _
  after_results_simp <;> rfl

/-- The `where` of the degree normalisation, over any contents at its entry: a select between the inverse square
    roots and a broadcast zero. -/
theorem where_v14 (Vp : Valuation τ sig (Elt Ideal)) :
    StableHlo.after hostOps0_1 Vp (Proc.devRef .tc main_v14)
      = select (Vp (Proc.devRef .tc main_v12)) (Vp (Proc.devRef .tc main_v13))
          (broadcastInDim S50000 ![] bcast_S_S50000 (id (Vp (Proc.devRef .tc main_cst_2)))) := by
  after_results_simp
  rfl

/-- The normalisation factor of every node: the inverse square root of its degree, zero at degree zero. -/
theorem W2_v14 : W2 m ρ c (Proc.devRef .tc main_v14) = (val_main_v14 (F := Ideal) (m ((c : Thread nD τ).loc main_arg1))) := by
  refine (where_v14 (W1 m ρ c)).trans ?_
  rw [W1_v12 m ρ c, W1_v13 m ρ c, W1_cst_2 m ρ c]
  rfl

theorem W2_v3 : W2 m ρ c (Proc.devRef .tc main_v3) = (val_main_v3 (F := Ideal) (m ((c : Thread nD τ).loc main_arg1))) := ((by host_keep hostOps0_1 : W2 m ρ c (Proc.devRef .tc main_v3) = W1 m ρ c (Proc.devRef .tc main_v3)).trans (W1_v3 m ρ c))
theorem W2_v6 : W2 m ρ c (Proc.devRef .tc main_v6) = (val_main_v6 (F := Ideal) (m ((c : Thread nD τ).loc main_arg1))) := ((by host_keep hostOps0_1 : W2 m ρ c (Proc.devRef .tc main_v6) = W1 m ρ c (Proc.devRef .tc main_v6)).trans (W1_v6 m ρ c))

theorem W2_arg2 : W2 m ρ c (Proc.devRef .tc main_arg2) = (m ((c : Thread nD τ).loc main_arg2)) :=
  ((by host_keep hostOps0_1 : W2 m ρ c (Proc.devRef .tc main_arg2) = W1 m ρ c (Proc.devRef .tc main_arg2)).trans ((by host_keep hostOps0 : W1 m ρ c (Proc.devRef .tc main_arg2) = W0 m ρ c (Proc.devRef .tc main_arg2)).trans rfl))
theorem W2_arg3 : W2 m ρ c (Proc.devRef .tc main_arg3) = (m ((c : Thread nD τ).loc main_arg3)) :=
  ((by host_keep hostOps0_1 : W2 m ρ c (Proc.devRef .tc main_arg3) = W1 m ρ c (Proc.devRef .tc main_arg3)).trans ((by host_keep hostOps0 : W1 m ρ c (Proc.devRef .tc main_arg3) = W0 m ρ c (Proc.devRef .tc main_arg3)).trans rfl))
theorem W2_arg4 : W2 m ρ c (Proc.devRef .tc main_arg4) = (m ((c : Thread nD τ).loc main_arg4)) :=
  ((by host_keep hostOps0_1 : W2 m ρ c (Proc.devRef .tc main_arg4) = W1 m ρ c (Proc.devRef .tc main_arg4)).trans ((by host_keep hostOps0 : W1 m ρ c (Proc.devRef .tc main_arg4) = W0 m ρ c (Proc.devRef .tc main_arg4)).trans rfl))
theorem W2_arg5 : W2 m ρ c (Proc.devRef .tc main_arg5) = (m ((c : Thread nD τ).loc main_arg5)) :=
  ((by host_keep hostOps0_1 : W2 m ρ c (Proc.devRef .tc main_arg5) = W1 m ρ c (Proc.devRef .tc main_arg5)).trans ((by host_keep hostOps0 : W1 m ρ c (Proc.devRef .tc main_arg5) = W0 m ρ c (Proc.devRef .tc main_arg5)).trans rfl))
theorem W2_arg6 : W2 m ρ c (Proc.devRef .tc main_arg6) = (m ((c : Thread nD τ).loc main_arg6)) :=
  ((by host_keep hostOps0_1 : W2 m ρ c (Proc.devRef .tc main_arg6) = W1 m ρ c (Proc.devRef .tc main_arg6)).trans ((by host_keep hostOps0 : W1 m ρ c (Proc.devRef .tc main_arg6) = W0 m ρ c (Proc.devRef .tc main_arg6)).trans rfl))

set_option maxHeartbeats 4000000 in
/-- The symmetric normalisation weight of every edge and self-loop. -/
theorem W3_v29 : W3 m ρ c (Proc.devRef .tc main_v29) = (val_main_v29 (F := Ideal) (m ((c : Thread nD τ).loc main_arg1))) := by
  have h0 := W2_v3 m ρ c
  have h1 := W2_v6 m ρ c
  have h2 := W2_v14 m ρ c
  show StableHlo.after hostOps0_2 (W2 m ρ c) (Proc.devRef .tc main_v29) = _
  generalize W2 m ρ c = Vp at h0 h1 h2 ⊢
  after_results_simp
  rw [h0, h1, h2]
  rfl

set_option maxHeartbeats 4000000 in
/-- The first layer of the embedding network, before its activation. -/
theorem W3_v33 : W3 m ρ c (Proc.devRef .tc main_v33) = (val_main_v33 (F := Ideal) (m ((c : Thread nD τ).loc main_arg2)) (m ((c : Thread nD τ).loc main_arg3)) (m ((c : Thread nD τ).loc main_arg4))) := by
  have h0 := W2_arg2 m ρ c
  have h1 := W2_arg3 m ρ c
  have h2 := W2_arg4 m ρ c
  show StableHlo.after hostOps0_2 (W2 m ρ c) (Proc.devRef .tc main_v33) = _
  generalize W2 m ρ c = Vp at h0 h1 h2 ⊢
  after_results_simp
  rw [h0, h1, h2]
  rfl

set_option maxHeartbeats 4000000 in
/-- … and after it. -/
theorem W4_v34 : W4 m ρ c (Proc.devRef .tc main_v34) = (val_main_v34 (F := Ideal) (m ((c : Thread nD τ).loc main_arg2)) (m ((c : Thread nD τ).loc main_arg3)) (m ((c : Thread nD τ).loc main_arg4))) := by
  have h0 := W3_v33 m ρ c
  show StableHlo.after hostOps0_3 (W3 m ρ c) (Proc.devRef .tc main_v34) = _
  generalize W3 m ρ c = Vp at h0 ⊢
  after_results_simp
  rw [h0]
  rfl

theorem W4_arg5 : W4 m ρ c (Proc.devRef .tc main_arg5) = (m ((c : Thread nD τ).loc main_arg5)) := ((by host_keep hostOps0_3 : W4 m ρ c (Proc.devRef .tc main_arg5) = W3 m ρ c (Proc.devRef .tc main_arg5)).trans ((by host_keep hostOps0_2 : W3 m ρ c (Proc.devRef .tc main_arg5) = W2 m ρ c (Proc.devRef .tc main_arg5)).trans (W2_arg5 m ρ c)))
theorem W4_arg6 : W4 m ρ c (Proc.devRef .tc main_arg6) = (m ((c : Thread nD τ).loc main_arg6)) := ((by host_keep hostOps0_3 : W4 m ρ c (Proc.devRef .tc main_arg6) = W3 m ρ c (Proc.devRef .tc main_arg6)).trans ((by host_keep hostOps0_2 : W3 m ρ c (Proc.devRef .tc main_arg6) = W2 m ρ c (Proc.devRef .tc main_arg6)).trans (W2_arg6 m ρ c)))

set_option maxHeartbeats 4000000 in
/-- The embedding row of the conditioning vector. -/
theorem W5_v37 : W5 m ρ c (Proc.devRef .tc main_v37) = (val_main_v37 (F := Ideal) (m ((c : Thread nD τ).loc main_arg2)) (m ((c : Thread nD τ).loc main_arg3)) (m ((c : Thread nD τ).loc main_arg4)) (m ((c : Thread nD τ).loc main_arg5)) (m ((c : Thread nD τ).loc main_arg6))) := by
  have h0 := W4_v34 m ρ c
  have h1 := W4_arg5 m ρ c
  have h2 := W4_arg6 m ρ c
  show StableHlo.after hostOps0_4 (W4 m ρ c) (Proc.devRef .tc main_v37) = _
  generalize W4 m ρ c = Vp at h0 h1 h2 ⊢
  after_results_simp
  rw [h0, h1, h2]
  rfl

theorem W5_v3 : W5 m ρ c (Proc.devRef .tc main_v3) = (val_main_v3 (F := Ideal) (m ((c : Thread nD τ).loc main_arg1))) := ((by host_keep hostOps0_4 : W5 m ρ c (Proc.devRef .tc main_v3) = W4 m ρ c (Proc.devRef .tc main_v3)).trans ((by host_keep hostOps0_3 : W4 m ρ c (Proc.devRef .tc main_v3) = W3 m ρ c (Proc.devRef .tc main_v3)).trans ((by host_keep hostOps0_2 : W3 m ρ c (Proc.devRef .tc main_v3) = W2 m ρ c (Proc.devRef .tc main_v3)).trans (W2_v3 m ρ c))))
theorem W5_v6 : W5 m ρ c (Proc.devRef .tc main_v6) = (val_main_v6 (F := Ideal) (m ((c : Thread nD τ).loc main_arg1))) := ((by host_keep hostOps0_4 : W5 m ρ c (Proc.devRef .tc main_v6) = W4 m ρ c (Proc.devRef .tc main_v6)).trans ((by host_keep hostOps0_3 : W4 m ρ c (Proc.devRef .tc main_v6) = W3 m ρ c (Proc.devRef .tc main_v6)).trans ((by host_keep hostOps0_2 : W3 m ρ c (Proc.devRef .tc main_v6) = W2 m ρ c (Proc.devRef .tc main_v6)).trans (W2_v6 m ρ c))))
theorem W5_v29 : W5 m ρ c (Proc.devRef .tc main_v29) = (val_main_v29 (F := Ideal) (m ((c : Thread nD τ).loc main_arg1))) := ((by host_keep hostOps0_4 : W5 m ρ c (Proc.devRef .tc main_v29) = W4 m ρ c (Proc.devRef .tc main_v29)).trans ((by host_keep hostOps0_3 : W4 m ρ c (Proc.devRef .tc main_v29) = W3 m ρ c (Proc.devRef .tc main_v29)).trans (W3_v29 m ρ c)))

theorem W5_arg0 : W5 m ρ c (Proc.devRef .tc main_arg0) = (m ((c : Thread nD τ).loc main_arg0)) :=
  ((by host_keep hostOps0_4 : W5 m ρ c (Proc.devRef .tc main_arg0) = W4 m ρ c (Proc.devRef .tc main_arg0)).trans ((by host_keep hostOps0_3 : W4 m ρ c (Proc.devRef .tc main_arg0) = W3 m ρ c (Proc.devRef .tc main_arg0)).trans ((by host_keep hostOps0_2 : W3 m ρ c (Proc.devRef .tc main_arg0) = W2 m ρ c (Proc.devRef .tc main_arg0)).trans ((by host_keep hostOps0_1 : W2 m ρ c (Proc.devRef .tc main_arg0) = W1 m ρ c (Proc.devRef .tc main_arg0)).trans ((by host_keep hostOps0 : W1 m ρ c (Proc.devRef .tc main_arg0) = W0 m ρ c (Proc.devRef .tc main_arg0)).trans rfl)))))

theorem W5_arg7 : W5 m ρ c (Proc.devRef .tc main_arg7) = (m ((c : Thread nD τ).loc main_arg7)) :=
  ((by host_keep hostOps0_4 : W5 m ρ c (Proc.devRef .tc main_arg7) = W4 m ρ c (Proc.devRef .tc main_arg7)).trans ((by host_keep hostOps0_3 : W4 m ρ c (Proc.devRef .tc main_arg7) = W3 m ρ c (Proc.devRef .tc main_arg7)).trans ((by host_keep hostOps0_2 : W3 m ρ c (Proc.devRef .tc main_arg7) = W2 m ρ c (Proc.devRef .tc main_arg7)).trans ((by host_keep hostOps0_1 : W2 m ρ c (Proc.devRef .tc main_arg7) = W1 m ρ c (Proc.devRef .tc main_arg7)).trans ((by host_keep hostOps0 : W1 m ρ c (Proc.devRef .tc main_arg7) = W0 m ρ c (Proc.devRef .tc main_arg7)).trans rfl)))))

/-! ## The first layer -/

/-- The first projection of every node. -/
theorem W6_v38 : W6 m ρ c (Proc.devRef .tc main_v38) = (val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W6_arr m ρ c 3).trans ((final0 (V5 m ρ) c).trans ?_)
  have e0 : V5 m ρ c main_arg0 = (m ((c : Thread nD τ).loc main_arg0)) := W5_arg0 m ρ c
  have e1 : V5 m ρ c main_v37 = (val_main_v37 (F := Ideal) (m ((c : Thread nD τ).loc main_arg2)) (m ((c : Thread nD τ).loc main_arg3)) (m ((c : Thread nD τ).loc main_arg4)) (m ((c : Thread nD τ).loc main_arg5)) (m ((c : Thread nD τ).loc main_arg6))) := W5_v37 m ρ c
  have e2 : V5 m ρ c main_arg7 = (m ((c : Thread nD τ).loc main_arg7)) := W5_arg7 m ρ c
  rw [e0, e1, e2]
  exact (projAdd_ref _ _ _).symm

theorem W6_v3 : W6 m ρ c (Proc.devRef .tc main_v3) = (val_main_v3 (F := Ideal) (m ((c : Thread nD τ).loc main_arg1))) := ((W6_of_ne m ρ c main_v3 (by decide)).trans (W5_v3 m ρ c))
theorem W6_v6 : W6 m ρ c (Proc.devRef .tc main_v6) = (val_main_v6 (F := Ideal) (m ((c : Thread nD τ).loc main_arg1))) := ((W6_of_ne m ρ c main_v6 (by decide)).trans (W5_v6 m ρ c))
theorem W6_v29 : W6 m ρ c (Proc.devRef .tc main_v29) = (val_main_v29 (F := Ideal) (m ((c : Thread nD τ).loc main_arg1))) := ((W6_of_ne m ρ c main_v29 (by decide)).trans (W5_v29 m ρ c))

theorem W6_arg8 : W6 m ρ c (Proc.devRef .tc main_arg8) = (m ((c : Thread nD τ).loc main_arg8)) :=
  ((W6_of_ne m ρ c main_arg8 (by decide)).trans ((by host_keep hostOps0_4 : W5 m ρ c (Proc.devRef .tc main_arg8) = W4 m ρ c (Proc.devRef .tc main_arg8)).trans ((by host_keep hostOps0_3 : W4 m ρ c (Proc.devRef .tc main_arg8) = W3 m ρ c (Proc.devRef .tc main_arg8)).trans ((by host_keep hostOps0_2 : W3 m ρ c (Proc.devRef .tc main_arg8) = W2 m ρ c (Proc.devRef .tc main_arg8)).trans ((by host_keep hostOps0_1 : W2 m ρ c (Proc.devRef .tc main_arg8) = W1 m ρ c (Proc.devRef .tc main_arg8)).trans ((by host_keep hostOps0 : W1 m ρ c (Proc.devRef .tc main_arg8) = W0 m ρ c (Proc.devRef .tc main_arg8)).trans rfl))))))

set_option maxHeartbeats 4000000 in
/-- The first layer's aggregated messages: gathered along the edges, scaled, scatter-added to the target nodes. -/
theorem W7_v51 : W7 m ρ c (Proc.devRef .tc main_v51) = (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h0 := W6_v6 m ρ c
  have h1 := W6_v38 m ρ c
  have h2 := W6_v3 m ρ c
  have h3 := W6_v29 m ρ c
  show StableHlo.after hostOps1 (W6 m ρ c) (Proc.devRef .tc main_v51) = _
  generalize W6 m ρ c = Vp at h0 h1 h2 h3 ⊢
  after_results_simp
  rw [h0, h1, h2, h3]
  rfl

set_option maxHeartbeats 4000000 in
/-- The first bias, as a row. -/
theorem W7_v52 : W7 m ρ c (Proc.devRef .tc main_v52) = (shapeCast S1x128 (m ((c : Thread nD τ).loc main_arg8)) shapeCasts_S128_S1x128) := by
  have h0 := W6_arg8 m ρ c
  show StableHlo.after hostOps1 (W6 m ρ c) (Proc.devRef .tc main_v52) = _
  generalize W6 m ρ c = Vp at h0 ⊢
  after_results_simp
  rw [h0]
  rfl

/-- The first layer's activations. -/
theorem W8_v53 : W8 m ρ c (Proc.devRef .tc main_v53) = (val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W8_arr m ρ c 2).trans ((final1 (V7 m ρ) c).trans ?_)
  have e0 : V7 m ρ c main_v51 = (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := W7_v51 m ρ c
  have e1 : V7 m ρ c main_v52 = (shapeCast S1x128 (m ((c : Thread nD τ).loc main_arg8)) shapeCasts_S128_S1x128) := W7_v52 m ρ c
  rw [e0, e1]
  exact (biasRelu_ref _ (m ((c : Thread nD τ).loc main_arg8)) _ (fun q => shapeCast_a_1a_apply (m ((c : Thread nD τ).loc main_arg8)) shapeCasts_S128_S1x128 0 q)).symm

/-! ## The second layer -/

theorem W8_arg9 : W8 m ρ c (Proc.devRef .tc main_arg9) = (m ((c : Thread nD τ).loc main_arg9)) :=
  ((W8_of_ne m ρ c main_arg9 (by decide)).trans ((by host_keep hostOps1 : W7 m ρ c (Proc.devRef .tc main_arg9) = W6 m ρ c (Proc.devRef .tc main_arg9)).trans ((W6_of_ne m ρ c main_arg9 (by decide)).trans ((by host_keep hostOps0_4 : W5 m ρ c (Proc.devRef .tc main_arg9) = W4 m ρ c (Proc.devRef .tc main_arg9)).trans ((by host_keep hostOps0_3 : W4 m ρ c (Proc.devRef .tc main_arg9) = W3 m ρ c (Proc.devRef .tc main_arg9)).trans ((by host_keep hostOps0_2 : W3 m ρ c (Proc.devRef .tc main_arg9) = W2 m ρ c (Proc.devRef .tc main_arg9)).trans ((by host_keep hostOps0_1 : W2 m ρ c (Proc.devRef .tc main_arg9) = W1 m ρ c (Proc.devRef .tc main_arg9)).trans ((by host_keep hostOps0 : W1 m ρ c (Proc.devRef .tc main_arg9) = W0 m ρ c (Proc.devRef .tc main_arg9)).trans rfl))))))))

/-- The second projection of every node. -/
theorem W9_v54 : W9 m ρ c (Proc.devRef .tc main_v54) = (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W9_arr m ρ c 2).trans ((final2 (V8 m ρ) c).trans ?_)
  have e0 : V8 m ρ c main_v53 = (val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := W8_v53 m ρ c
  have e1 : V8 m ρ c main_arg9 = (m ((c : Thread nD τ).loc main_arg9)) := W8_arg9 m ρ c
  rw [e0, e1]
  exact (proj_ref _ _).symm

theorem W9_v3 : W9 m ρ c (Proc.devRef .tc main_v3) = (val_main_v3 (F := Ideal) (m ((c : Thread nD τ).loc main_arg1))) := ((W9_of_ne m ρ c main_v3 (by decide)).trans ((W8_of_ne m ρ c main_v3 (by decide)).trans ((by host_keep hostOps1 : W7 m ρ c (Proc.devRef .tc main_v3) = W6 m ρ c (Proc.devRef .tc main_v3)).trans (W6_v3 m ρ c))))
theorem W9_v6 : W9 m ρ c (Proc.devRef .tc main_v6) = (val_main_v6 (F := Ideal) (m ((c : Thread nD τ).loc main_arg1))) := ((W9_of_ne m ρ c main_v6 (by decide)).trans ((W8_of_ne m ρ c main_v6 (by decide)).trans ((by host_keep hostOps1 : W7 m ρ c (Proc.devRef .tc main_v6) = W6 m ρ c (Proc.devRef .tc main_v6)).trans (W6_v6 m ρ c))))
theorem W9_v29 : W9 m ρ c (Proc.devRef .tc main_v29) = (val_main_v29 (F := Ideal) (m ((c : Thread nD τ).loc main_arg1))) := ((W9_of_ne m ρ c main_v29 (by decide)).trans ((W8_of_ne m ρ c main_v29 (by decide)).trans ((by host_keep hostOps1 : W7 m ρ c (Proc.devRef .tc main_v29) = W6 m ρ c (Proc.devRef .tc main_v29)).trans (W6_v29 m ρ c))))

theorem W9_arg10 : W9 m ρ c (Proc.devRef .tc main_arg10) = (m ((c : Thread nD τ).loc main_arg10)) :=
  ((W9_of_ne m ρ c main_arg10 (by decide)).trans ((W8_of_ne m ρ c main_arg10 (by decide)).trans ((by host_keep hostOps1 : W7 m ρ c (Proc.devRef .tc main_arg10) = W6 m ρ c (Proc.devRef .tc main_arg10)).trans ((W6_of_ne m ρ c main_arg10 (by decide)).trans ((by host_keep hostOps0_4 : W5 m ρ c (Proc.devRef .tc main_arg10) = W4 m ρ c (Proc.devRef .tc main_arg10)).trans ((by host_keep hostOps0_3 : W4 m ρ c (Proc.devRef .tc main_arg10) = W3 m ρ c (Proc.devRef .tc main_arg10)).trans ((by host_keep hostOps0_2 : W3 m ρ c (Proc.devRef .tc main_arg10) = W2 m ρ c (Proc.devRef .tc main_arg10)).trans ((by host_keep hostOps0_1 : W2 m ρ c (Proc.devRef .tc main_arg10) = W1 m ρ c (Proc.devRef .tc main_arg10)).trans ((by host_keep hostOps0 : W1 m ρ c (Proc.devRef .tc main_arg10) = W0 m ρ c (Proc.devRef .tc main_arg10)).trans rfl)))))))))

set_option maxHeartbeats 4000000 in
/-- The second layer's aggregated messages. -/
theorem W10_v67 : W10 m ρ c (Proc.devRef .tc main_v67) = (val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have h0 := W9_v6 m ρ c
  have h1 := W9_v54 m ρ c
  have h2 := W9_v3 m ρ c
  have h3 := W9_v29 m ρ c
  show StableHlo.after hostOps3 (W9 m ρ c) (Proc.devRef .tc main_v67) = _
  generalize W9 m ρ c = Vp at h0 h1 h2 h3 ⊢
  after_results_simp
  rw [h0, h1, h2, h3]
  rfl

set_option maxHeartbeats 4000000 in
/-- The second bias, as a row. -/
theorem W10_v68 : W10 m ρ c (Proc.devRef .tc main_v68) = (shapeCast S1x128 (m ((c : Thread nD τ).loc main_arg10)) shapeCasts_S128_S1x128) := by
  have h0 := W9_arg10 m ρ c
  show StableHlo.after hostOps3 (W9 m ρ c) (Proc.devRef .tc main_v68) = _
  generalize W9 m ρ c = Vp at h0 ⊢
  after_results_simp
  rw [h0]
  rfl

/-- The second layer's activations. -/
theorem W11_v69 : W11 m ρ c (Proc.devRef .tc main_v69) = (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W11_arr m ρ c 2).trans ((final3 (V10 m ρ) c).trans ?_)
  have e0 : V10 m ρ c main_v67 = (val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := W10_v67 m ρ c
  have e1 : V10 m ρ c main_v68 = (shapeCast S1x128 (m ((c : Thread nD τ).loc main_arg10)) shapeCasts_S128_S1x128) := W10_v68 m ρ c
  rw [e0, e1]
  exact (biasRelu_ref _ (m ((c : Thread nD τ).loc main_arg10)) _ (fun q => shapeCast_a_1a_apply (m ((c : Thread nD τ).loc main_arg10)) shapeCasts_S128_S1x128 0 q)).symm

/-! ## The output heads -/

theorem W11_arg11 : W11 m ρ c (Proc.devRef .tc main_arg11) = (m ((c : Thread nD τ).loc main_arg11)) :=
  ((W11_of_ne m ρ c main_arg11 (by decide)).trans ((by host_keep hostOps3 : W10 m ρ c (Proc.devRef .tc main_arg11) = W9 m ρ c (Proc.devRef .tc main_arg11)).trans ((W9_of_ne m ρ c main_arg11 (by decide)).trans ((W8_of_ne m ρ c main_arg11 (by decide)).trans ((by host_keep hostOps1 : W7 m ρ c (Proc.devRef .tc main_arg11) = W6 m ρ c (Proc.devRef .tc main_arg11)).trans ((W6_of_ne m ρ c main_arg11 (by decide)).trans ((by host_keep hostOps0_4 : W5 m ρ c (Proc.devRef .tc main_arg11) = W4 m ρ c (Proc.devRef .tc main_arg11)).trans ((by host_keep hostOps0_3 : W4 m ρ c (Proc.devRef .tc main_arg11) = W3 m ρ c (Proc.devRef .tc main_arg11)).trans ((by host_keep hostOps0_2 : W3 m ρ c (Proc.devRef .tc main_arg11) = W2 m ρ c (Proc.devRef .tc main_arg11)).trans ((by host_keep hostOps0_1 : W2 m ρ c (Proc.devRef .tc main_arg11) = W1 m ρ c (Proc.devRef .tc main_arg11)).trans ((by host_keep hostOps0 : W1 m ρ c (Proc.devRef .tc main_arg11) = W0 m ρ c (Proc.devRef .tc main_arg11)).trans rfl)))))))))))

theorem W11_arg12 : W11 m ρ c (Proc.devRef .tc main_arg12) = (m ((c : Thread nD τ).loc main_arg12)) :=
  ((W11_of_ne m ρ c main_arg12 (by decide)).trans ((by host_keep hostOps3 : W10 m ρ c (Proc.devRef .tc main_arg12) = W9 m ρ c (Proc.devRef .tc main_arg12)).trans ((W9_of_ne m ρ c main_arg12 (by decide)).trans ((W8_of_ne m ρ c main_arg12 (by decide)).trans ((by host_keep hostOps1 : W7 m ρ c (Proc.devRef .tc main_arg12) = W6 m ρ c (Proc.devRef .tc main_arg12)).trans ((W6_of_ne m ρ c main_arg12 (by decide)).trans ((by host_keep hostOps0_4 : W5 m ρ c (Proc.devRef .tc main_arg12) = W4 m ρ c (Proc.devRef .tc main_arg12)).trans ((by host_keep hostOps0_3 : W4 m ρ c (Proc.devRef .tc main_arg12) = W3 m ρ c (Proc.devRef .tc main_arg12)).trans ((by host_keep hostOps0_2 : W3 m ρ c (Proc.devRef .tc main_arg12) = W2 m ρ c (Proc.devRef .tc main_arg12)).trans ((by host_keep hostOps0_1 : W2 m ρ c (Proc.devRef .tc main_arg12) = W1 m ρ c (Proc.devRef .tc main_arg12)).trans ((by host_keep hostOps0 : W1 m ρ c (Proc.devRef .tc main_arg12) = W0 m ρ c (Proc.devRef .tc main_arg12)).trans rfl)))))))))))

theorem W11_arg13 : W11 m ρ c (Proc.devRef .tc main_arg13) = (m ((c : Thread nD τ).loc main_arg13)) :=
  ((W11_of_ne m ρ c main_arg13 (by decide)).trans ((by host_keep hostOps3 : W10 m ρ c (Proc.devRef .tc main_arg13) = W9 m ρ c (Proc.devRef .tc main_arg13)).trans ((W9_of_ne m ρ c main_arg13 (by decide)).trans ((W8_of_ne m ρ c main_arg13 (by decide)).trans ((by host_keep hostOps1 : W7 m ρ c (Proc.devRef .tc main_arg13) = W6 m ρ c (Proc.devRef .tc main_arg13)).trans ((W6_of_ne m ρ c main_arg13 (by decide)).trans ((by host_keep hostOps0_4 : W5 m ρ c (Proc.devRef .tc main_arg13) = W4 m ρ c (Proc.devRef .tc main_arg13)).trans ((by host_keep hostOps0_3 : W4 m ρ c (Proc.devRef .tc main_arg13) = W3 m ρ c (Proc.devRef .tc main_arg13)).trans ((by host_keep hostOps0_2 : W3 m ρ c (Proc.devRef .tc main_arg13) = W2 m ρ c (Proc.devRef .tc main_arg13)).trans ((by host_keep hostOps0_1 : W2 m ρ c (Proc.devRef .tc main_arg13) = W1 m ρ c (Proc.devRef .tc main_arg13)).trans ((by host_keep hostOps0 : W1 m ρ c (Proc.devRef .tc main_arg13) = W0 m ρ c (Proc.devRef .tc main_arg13)).trans rfl)))))))))))

theorem W11_arg14 : W11 m ρ c (Proc.devRef .tc main_arg14) = (m ((c : Thread nD τ).loc main_arg14)) :=
  ((W11_of_ne m ρ c main_arg14 (by decide)).trans ((by host_keep hostOps3 : W10 m ρ c (Proc.devRef .tc main_arg14) = W9 m ρ c (Proc.devRef .tc main_arg14)).trans ((W9_of_ne m ρ c main_arg14 (by decide)).trans ((W8_of_ne m ρ c main_arg14 (by decide)).trans ((by host_keep hostOps1 : W7 m ρ c (Proc.devRef .tc main_arg14) = W6 m ρ c (Proc.devRef .tc main_arg14)).trans ((W6_of_ne m ρ c main_arg14 (by decide)).trans ((by host_keep hostOps0_4 : W5 m ρ c (Proc.devRef .tc main_arg14) = W4 m ρ c (Proc.devRef .tc main_arg14)).trans ((by host_keep hostOps0_3 : W4 m ρ c (Proc.devRef .tc main_arg14) = W3 m ρ c (Proc.devRef .tc main_arg14)).trans ((by host_keep hostOps0_2 : W3 m ρ c (Proc.devRef .tc main_arg14) = W2 m ρ c (Proc.devRef .tc main_arg14)).trans ((by host_keep hostOps0_1 : W2 m ρ c (Proc.devRef .tc main_arg14) = W1 m ρ c (Proc.devRef .tc main_arg14)).trans ((by host_keep hostOps0 : W1 m ρ c (Proc.devRef .tc main_arg14) = W0 m ρ c (Proc.devRef .tc main_arg14)).trans rfl)))))))))))

set_option maxHeartbeats 4000000 in
/-- The two heads' weight matrices side by side. -/
theorem W12_v70 : W12 m ρ c (Proc.devRef .tc main_v70) = (concatenate S128x128 1 [⟨S128x64, (m ((c : Thread nD τ).loc main_arg11))⟩, ⟨S128x64, (m ((c : Thread nD τ).loc main_arg13))⟩] concatenates_S128x64_S128x64_S128x128_d1) := by
  have h : W12 m ρ c (Proc.devRef .tc main_v70) = (concatenate S128x128 1 [⟨S128x64, (W11 m ρ c (Proc.devRef .tc main_arg11))⟩, ⟨S128x64, (W11 m ρ c (Proc.devRef .tc main_arg13))⟩] concatenates_S128x64_S128x64_S128x128_d1) := by
    show StableHlo.after hostOps4 (W11 m ρ c) (Proc.devRef .tc main_v70) = _
    after_results_simp <;> rfl
  rw [h, W11_arg11 m ρ c, W11_arg13 m ρ c]

set_option maxHeartbeats 4000000 in
/-- The two heads' biases end to end, as a row. -/
theorem W12_v72 : W12 m ρ c (Proc.devRef .tc main_v72) = (shapeCast S1x128 (concatenate S128 0 [⟨S64, (m ((c : Thread nD τ).loc main_arg12))⟩, ⟨S64, (m ((c : Thread nD τ).loc main_arg14))⟩] concatenates_S64_S64_S128_d0) shapeCasts_S128_S1x128) := by
  have h : W12 m ρ c (Proc.devRef .tc main_v72) = (shapeCast S1x128 (concatenate S128 0 [⟨S64, (W11 m ρ c (Proc.devRef .tc main_arg12))⟩, ⟨S64, (W11 m ρ c (Proc.devRef .tc main_arg14))⟩] concatenates_S64_S64_S128_d0) shapeCasts_S128_S1x128) := by
    show StableHlo.after hostOps4 (W11 m ρ c) (Proc.devRef .tc main_v72) = _
    after_results_simp <;> rfl
  rw [h, W11_arg12 m ρ c, W11_arg14 m ρ c]

theorem W12_v69 : W12 m ρ c (Proc.devRef .tc main_v69) = (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := ((by host_keep hostOps4 : W12 m ρ c (Proc.devRef .tc main_v69) = W11 m ρ c (Proc.devRef .tc main_v69)).trans (W11_v69 m ρ c))

/-- Both heads at once: 128 columns, the mean head's in the first 64 and the log-variance head's in the last. -/
theorem W13_v73 : W13 m ρ c (Proc.devRef .tc main_v73) = linBias (R := 50000) (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (concatenate S128x128 1 [⟨S128x64, (m ((c : Thread nD τ).loc main_arg11))⟩, ⟨S128x64, (m ((c : Thread nD τ).loc main_arg13))⟩] concatenates_S128x64_S128x64_S128x128_d1) (shapeCast S1x128 (concatenate S128 0 [⟨S64, (m ((c : Thread nD τ).loc main_arg12))⟩, ⟨S64, (m ((c : Thread nD τ).loc main_arg14))⟩] concatenates_S64_S64_S128_d0) shapeCasts_S128_S1x128) := by
  refine (W13_arr m ρ c 3).trans ((final4 (V12 m ρ) c).trans ?_)
  have e0 : V12 m ρ c main_v69 = (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := W12_v69 m ρ c
  have e1 : V12 m ρ c main_v70 = (concatenate S128x128 1 [⟨S128x64, (m ((c : Thread nD τ).loc main_arg11))⟩, ⟨S128x64, (m ((c : Thread nD τ).loc main_arg13))⟩] concatenates_S128x64_S128x64_S128x128_d1) := W12_v70 m ρ c
  have e2 : V12 m ρ c main_v72 = (shapeCast S1x128 (concatenate S128 0 [⟨S64, (m ((c : Thread nD τ).loc main_arg12))⟩, ⟨S64, (m ((c : Thread nD τ).loc main_arg14))⟩] concatenates_S64_S64_S128_d0) shapeCasts_S128_S1x128) := W12_v72 m ρ c
  rw [e0, e1, e2]

/-- THE FIRST RESULT: the mean head, as the reference computes it. -/
theorem W14_v74 : W14 m ρ c (Proc.devRef .tc main_v74) = (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have h0 := W13_v73 m ρ c
  show StableHlo.after hostOps5 (W13 m ρ c) (Proc.devRef .tc main_v74) = _
  generalize W13 m ρ c = Vp at h0 ⊢
  after_results_simp
  rw [h0]
  exact head_ref 0 (by omega) _ _ _ (m ((c : Thread nD τ).loc main_arg11)) (m ((c : Thread nD τ).loc main_arg12))
    (fun k q => catCols_left (m ((c : Thread nD τ).loc main_arg11)) (m ((c : Thread nD τ).loc main_arg13)) concatenates_S128x64_S128x64_S128x128_d1 k q)
    (fun q => (shapeCast_a_1a_apply (concatenate S128 0 [⟨S64, (m ((c : Thread nD τ).loc main_arg12))⟩, ⟨S64, (m ((c : Thread nD τ).loc main_arg14))⟩] concatenates_S64_S64_S128_d0) shapeCasts_S128_S1x128 0 _).trans (catVec_left (m ((c : Thread nD τ).loc main_arg12)) (m ((c : Thread nD τ).loc main_arg14)) concatenates_S64_S64_S128_d0 q))
    slices_S50000x128_S50000x64_0_0

/-- THE SECOND RESULT: the log-variance head, as the reference computes it. -/
theorem W14_v75 : W14 m ρ c (Proc.devRef .tc main_v75) = (val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14))) := by
  have h0 := W13_v73 m ρ c
  show StableHlo.after hostOps5 (W13 m ρ c) (Proc.devRef .tc main_v75) = _
  generalize W13 m ρ c = Vp at h0 ⊢
  after_results_simp
  rw [h0]
  exact head_ref 64 (by omega) _ _ _ (m ((c : Thread nD τ).loc main_arg13)) (m ((c : Thread nD τ).loc main_arg14))
    (fun k q => catCols_right (m ((c : Thread nD τ).loc main_arg11)) (m ((c : Thread nD τ).loc main_arg13)) concatenates_S128x64_S128x64_S128x128_d1 k q)
    (fun q => (shapeCast_a_1a_apply (concatenate S128 0 [⟨S64, (m ((c : Thread nD τ).loc main_arg12))⟩, ⟨S64, (m ((c : Thread nD τ).loc main_arg14))⟩] concatenates_S64_S64_S128_d0) shapeCasts_S128_S1x128 0 _).trans (catVec_right (m ((c : Thread nD τ).loc main_arg12)) (m ((c : Thread nD τ).loc main_arg14)) concatenates_S64_S64_S128_d0 q))
    slices_S50000x128_S50000x64_0_64

end Cert.KernelIdeal.Hand

end
-- ==== Proof.lean ====
/-
  The certificate of a two-layer graph convolution encoder: a kernel program against its jnp reference, equal over the
  extended reals.

  Both programs compute, for 50000 nodes with 128 features and 800000 edges plus self-loops,
      h₀ = x + e                      (e: an embedding row of a 3-vector through a small two-layer network)
      hₗ₊₁ = relu (Â (hₗ Wₗ) + bₗ)      (two layers; Â gathers the transformed rows along the edges, scales them by the
                                        symmetric degree normalisation, and scatter-adds them to the target nodes)
      mean = h₂ W_μ + b_μ,   logvar = h₂ W_σ + b_σ.
  The reference does all of it with host operations. The kernel program keeps the graph glue on the host, the same
  operations in the same order, and runs the five node-wise stages as kernels tiled over the nodes, 5000 rows at a time:
  (x + e) W₁; relu (· + b₁); · W₂; relu (· + b₂); and both heads at once as one product with [W_μ | W_σ] plus [b_μ | b_σ],
  cut into its two halves afterwards.

  Every node-wise stage depends on one row of its first operand, so computing it tile by tile is computing it
  (`Region0` … `Region4`: each kernel's result array is the stage function of its operand arrays); the host's
  matrix products are the same sums over the 128 contracted features (`Bridge`); a matrix of two 64-column blocks
  multiplies column block by column block, so the halves of the joint head are the two heads (`Bridge.head_ref`); and
  the shared graph glue is applied to equal operands, so it is never opened (`Chain`). No step moves a factor
  across a sum or cancels anything, so the inputs' finiteness is not used: the two results are the same expression of
  the arguments on all extended reals.

  The three frames: the two kernel programs' are the generated frame certificates; the reference has no kernel, and its
  frame is its run with the results dropped. The idealization rewrote nothing, so `preserves` is trivial.
-/
import proofs.«126186_j44573170598274_1_alg».proof.Defs
import proofs.«126186_j44573170598274_1_alg».proof.Proof.Gen.Kernel
import proofs.«126186_j44573170598274_1_alg».proof.Proof.Gen.Kernel.Skeleton
import proofs.«126186_j44573170598274_1_alg».proof.Proof.Gen.Kernel.Launch
import proofs.«126186_j44573170598274_1_alg».proof.Proof.Gen.Kernel.Points
import proofs.«126186_j44573170598274_1_alg».proof.Proof.Gen.Kernel.Frame
import proofs.«126186_j44573170598274_1_alg».proof.Proof.Gen.KernelIdeal
import proofs.«126186_j44573170598274_1_alg».proof.Proof.Gen.KernelIdeal.Skeleton
import proofs.«126186_j44573170598274_1_alg».proof.Proof.Gen.KernelIdeal.Launch
import proofs.«126186_j44573170598274_1_alg».proof.Proof.Gen.KernelIdeal.Points
import proofs.«126186_j44573170598274_1_alg».proof.Proof.Gen.KernelIdeal.Frame
import proofs.«126186_j44573170598274_1_alg».proof.Proof.Gen.ReferenceIdeal
import proofs.«126186_j44573170598274_1_alg».proof.Proof.Gen.Pre_finite_inputs
import proofs.«126186_j44573170598274_1_alg».proof.Proof.KernelRun
import proofs.«126186_j44573170598274_1_alg».proof.Proof.Chain
import proofs.«126186_j44573170598274_1_alg».proof.Proof.RefRun
import proofs.«126186_j44573170598274_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

set_option maxHeartbeats 4000000 in
/-- From memories that agree on the arguments both programs end with the mean head and the log-variance head of
    those arguments, as the reference's stages compute them. -/
theorem algebraic : Cert.algebraic_KernelIdeal_ReferenceIdeal := by
  intro m ρ m' ρ' _ hagree
  refine ⟨fun c => Cert.ReferenceIdeal.ReadP.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.Hand.run_named (F := Ideal) m ρ)
    obtain ⟨h74, h75, hargs⟩ := h c
    exact ⟨h74.trans (Cert.KernelIdeal.Hand.W14_v74 m ρ c), h75.trans (Cert.KernelIdeal.Hand.W14_v75 m ρ c), hargs⟩
  · refine (θ_run Cert.ReferenceIdeal.defs _ _).mono (fun r h c => ?_) (Cert.ReferenceIdeal.ValueP.run (F := Ideal) m' ρ')
    obtain ⟨h79, h83, hargs⟩ := h c
    obtain ⟨e0, e1, e2, e3, e4, e5, e6, e7, e8, e9, e10, e11, e12, e13, e14⟩ := hagree c
    refine ⟨h79.trans ?_, h83.trans ?_, hargs⟩
    · rw [Cert.ReferenceIdeal.ReadP.val_main_v79_eq, e0, e1, e2, e3, e4, e5, e6, e7, e8, e9, e10, e11, e12]
    · rw [Cert.ReferenceIdeal.ReadP.val_main_v83_eq, e0, e1, e2, e3, e4, e5, e6, e7, e8, e9, e10, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
